-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_v7) = v6 c
          ∧ r.2.mem ((c.tc : Thread Cert.ReferenceIdeal.nD Cert.ReferenceIdeal.τ).loc Cert.ReferenceIdeal.main_v8) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S16384x256 : Shape := ⟨2, ![16384, 256]⟩
abbrev S512x4096 : Shape := ⟨2, ![512, 4096]⟩
abbrev S512x256 : Shape := ⟨2, ![512, 256]⟩
abbrev S512x32 : Shape := ⟨2, ![512, 32]⟩

abbrev nBuf : Space → Nat
  | .hbm => 9
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x256, .f32⟩
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S512x4096_S512x32_0_0 : ∀ a, (![0, 0] : Fin 2 → Nat) a + S512x32.size a ≤ S512x4096.size a
  h_S512x32 : 0 < S512x32.numel
  inb_S512x4096_S512x32_0_64 : ∀ a, (![0, 64] : Fin 2 → Nat) a + S512x32.size a ≤ S512x4096.size a
  inb_S512x4096_S512x32_0_128 : ∀ a, (![0, 128] : Fin 2 → Nat) a + S512x32.size a ≤ S512x4096.size a
  inb_S512x4096_S512x32_0_192 : ∀ a, (![0, 192] : Fin 2 → Nat) a + S512x32.size a ≤ S512x4096.size a
  inb_S512x4096_S512x32_0_256 : ∀ a, (![0, 256] : Fin 2 → Nat) a + S512x32.size a ≤ S512x4096.size a
  inb_S512x4096_S512x32_0_320 : ∀ a, (![0, 320] : Fin 2 → Nat) a + S512x32.size a ≤ S512x4096.size a
  inb_S512x4096_S512x32_0_384 : ∀ a, (![0, 384] : Fin 2 → Nat) a + S512x32.size a ≤ S512x4096.size a
  inb_S512x4096_S512x32_0_448 : ∀ a, (![0, 448] : Fin 2 → Nat) a + S512x32.size a ≤ S512x4096.size a
  concatenates_S512x32_S512x32_S512x32_S512x32_S512x32_S512x32_S512x32_S512x32_S512x256_d1 : Shape.Concatenates [S512x32, S512x32, S512x32, S512x32, S512x32, S512x32, S512x32, S512x32] S512x256 1
  inb_S512x256_S512x256_0_0 : ∀ a, (![0, 0] : Fin 2 → Nat) a + S512x256.size a ≤ S512x256.size a
  h_S512x256 : 0 < S512x256.numel
  inb_S512x4096_S512x32_0_512 : ∀ a, (![0, 512] : Fin 2 → Nat) a + S512x32.size a ≤ S512x4096.size a
  inb_S512x4096_S512x32_0_576 : ∀ a, (![0, 576] : Fin 2 → Nat) a + S512x32.size a ≤ S512x4096.size a
  inb_S512x4096_S512x32_0_640 : ∀ a, (![0, 640] : Fin 2 → Nat) a + S512x32.size a ≤ S512x4096.size a
  inb_S512x4096_S512x32_0_704 : ∀ a, (![0, 704] : Fin 2 → Nat) a + S512x32.size a ≤ S512x4096.size a
  inb_S512x4096_S512x32_0_768 : ∀ a, (![0, 768] : Fin 2 → Nat) a + S512x32.size a ≤ S512x4096.size a
  inb_S512x4096_S512x32_0_832 : ∀ a, (![0, 832] : Fin 2 → Nat) a + S512x32.size a ≤ S512x4096.size a
  inb_S512x4096_S512x32_0_896 : ∀ a, (![0, 896] : Fin 2 → Nat) a + S512x32.size a ≤ S512x4096.size a
  inb_S512x4096_S512x32_0_960 : ∀ a, (![0, 960] : Fin 2 → Nat) a + S512x32.size a ≤ S512x4096.size a
  inb_S512x4096_S512x32_0_1024 : ∀ a, (![0, 1024] : Fin 2 → Nat) a + S512x32.size a ≤ S512x4096.size a
  inb_S512x4096_S512x32_0_1088 : ∀ a, (![0, 1088] : Fin 2 → Nat) a + S512x32.size a ≤ S512x4096.size a
  inb_S512x4096_S512x32_0_1152 : ∀ a, (![0, 1152] : Fin 2 → Nat) a + S512x32.size a ≤ S512x4096.size a
  inb_S512x4096_S512x32_0_1216 : ∀ a, (![0, 1216] : Fin 2 → Nat) a + S512x32.size a ≤ S512x4096.size a
  inb_S512x4096_S512x32_0_1280 : ∀ a, (![0, 1280] : Fin 2 → Nat) a + S512x32.size a ≤ S512x4096.size a
  inb_S512x4096_S512x32_0_1344 : ∀ a, (![0, 1344] : Fin 2 → Nat) a + S512x32.size a ≤ S512x4096.size a
  inb_S512x4096_S512x32_0_1408 : ∀ a, (![0, 1408] : Fin 2 → Nat) a + S512x32.size a ≤ S512x4096.size a
  inb_S512x4096_S512x32_0_1472 : ∀ a, (![0, 1472] : Fin 2 → Nat) a + S512x32.size a ≤ S512x4096.size a
  inb_S512x4096_S512x32_0_1536 : ∀ a, (![0, 1536] : Fin 2 → Nat) a + S512x32.size a ≤ S512x4096.size a
  inb_S512x4096_S512x32_0_1600 : ∀ a, (![0, 1600] : Fin 2 → Nat) a + S512x32.size a ≤ S512x4096.size a
  inb_S512x4096_S512x32_0_1664 : ∀ a, (![0, 1664] : Fin 2 → Nat) a + S512x32.size a ≤ S512x4096.size a
  inb_S512x4096_S512x32_0_1728 : ∀ a, (![0, 1728] : Fin 2 → Nat) a + S512x32.size a ≤ S512x4096.size a
  inb_S512x4096_S512x32_0_1792 : ∀ a, (![0, 1792] : Fin 2 → Nat) a + S512x32.size a ≤ S512x4096.size a
  inb_S512x4096_S512x32_0_1856 : ∀ a, (![0, 1856] : Fin 2 → Nat) a + S512x32.size a ≤ S512x4096.size a
  inb_S512x4096_S512x32_0_1920 : ∀ a, (![0, 1920] : Fin 2 → Nat) a + S512x32.size a ≤ S512x4096.size a
  inb_S512x4096_S512x32_0_1984 : ∀ a, (![0, 1984] : Fin 2 → Nat) a + S512x32.size a ≤ S512x4096.size a
  inb_S512x4096_S512x32_0_2048 : ∀ a, (![0, 2048] : Fin 2 → Nat) a + S512x32.size a ≤ S512x4096.size a
  inb_S512x4096_S512x32_0_2112 : ∀ a, (![0, 2112] : Fin 2 → Nat) a + S512x32.size a ≤ S512x4096.size a
  inb_S512x4096_S512x32_0_2176 : ∀ a, (![0, 2176] : Fin 2 → Nat) a + S512x32.size a ≤ S512x4096.size a
  inb_S512x4096_S512x32_0_2240 : ∀ a, (![0, 2240] : Fin 2 → Nat) a + S512x32.size a ≤ S512x4096.size a
  inb_S512x4096_S512x32_0_2304 : ∀ a, (![0, 2304] : Fin 2 → Nat) a + S512x32.size a ≤ S512x4096.size a
  inb_S512x4096_S512x32_0_2368 : ∀ a, (![0, 2368] : Fin 2 → Nat) a + S512x32.size a ≤ S512x4096.size a
  inb_S512x4096_S512x32_0_2432 : ∀ a, (![0, 2432] : Fin 2 → Nat) a + S512x32.size a ≤ S512x4096.size a
  inb_S512x4096_S512x32_0_2496 : ∀ a, (![0, 2496] : Fin 2 → Nat) a + S512x32.size a ≤ S512x4096.size a
  inb_S512x4096_S512x32_0_2560 : ∀ a, (![0, 2560] : Fin 2 → Nat) a + S512x32.size a ≤ S512x4096.size a
  inb_S512x4096_S512x32_0_2624 : ∀ a, (![0, 2624] : Fin 2 → Nat) a + S512x32.size a ≤ S512x4096.size a
  inb_S512x4096_S512x32_0_2688 : ∀ a, (![0, 2688] : Fin 2 → Nat) a + S512x32.size a ≤ S512x4096.size a
  inb_S512x4096_S512x32_0_2752 : ∀ a, (![0, 2752] : Fin 2 → Nat) a + S512x32.size a ≤ S512x4096.size a
  inb_S512x4096_S512x32_0_2816 : ∀ a, (![0, 2816] : Fin 2 → Nat) a + S512x32.size a ≤ S512x4096.size a
  inb_S512x4096_S512x32_0_2880 : ∀ a, (![0, 2880] : Fin 2 → Nat) a + S512x32.size a ≤ S512x4096.size a
  inb_S512x4096_S512x32_0_2944 : ∀ a, (![0, 2944] : Fin 2 → Nat) a + S512x32.size a ≤ S512x4096.size a
  inb_S512x4096_S512x32_0_3008 : ∀ a, (![0, 3008] : Fin 2 → Nat) a + S512x32.size a ≤ S512x4096.size a
  inb_S512x4096_S512x32_0_3072 : ∀ a, (![0, 3072] : Fin 2 → Nat) a + S512x32.size a ≤ S512x4096.size a
  inb_S512x4096_S512x32_0_3136 : ∀ a, (![0, 3136] : Fin 2 → Nat) a + S512x32.size a ≤ S512x4096.size a
  inb_S512x4096_S512x32_0_3200 : ∀ a, (![0, 3200] : Fin 2 → Nat) a + S512x32.size a ≤ S512x4096.size a
  inb_S512x4096_S512x32_0_3264 : ∀ a, (![0, 3264] : Fin 2 → Nat) a + S512x32.size a ≤ S512x4096.size a
  inb_S512x4096_S512x32_0_3328 : ∀ a, (![0, 3328] : Fin 2 → Nat) a + S512x32.size a ≤ S512x4096.size a
  inb_S512x4096_S512x32_0_3392 : ∀ a, (![0, 3392] : Fin 2 → Nat) a + S512x32.size a ≤ S512x4096.size a
  inb_S512x4096_S512x32_0_3456 : ∀ a, (![0, 3456] : Fin 2 → Nat) a + S512x32.size a ≤ S512x4096.size a
  inb_S512x4096_S512x32_0_3520 : ∀ a, (![0, 3520] : Fin 2 → Nat) a + S512x32.size a ≤ S512x4096.size a
  inb_S512x4096_S512x32_0_3584 : ∀ a, (![0, 3584] : Fin 2 → Nat) a + S512x32.size a ≤ S512x4096.size a
  inb_S512x4096_S512x32_0_3648 : ∀ a, (![0, 3648] : Fin 2 → Nat) a + S512x32.size a ≤ S512x4096.size a
  inb_S512x4096_S512x32_0_3712 : ∀ a, (![0, 3712] : Fin 2 → Nat) a + S512x32.size a ≤ S512x4096.size a
  inb_S512x4096_S512x32_0_3776 : ∀ a, (![0, 3776] : Fin 2 → Nat) a + S512x32.size a ≤ S512x4096.size a
  inb_S512x4096_S512x32_0_3840 : ∀ a, (![0, 3840] : Fin 2 → Nat) a + S512x32.size a ≤ S512x4096.size a
  inb_S512x4096_S512x32_0_3904 : ∀ a, (![0, 3904] : Fin 2 → Nat) a + S512x32.size a ≤ S512x4096.size a
  inb_S512x4096_S512x32_0_3968 : ∀ a, (![0, 3968] : Fin 2 → Nat) a + S512x32.size a ≤ S512x4096.size a
  inb_S512x4096_S512x32_0_4032 : ∀ a, (![0, 4032] : Fin 2 → Nat) a + S512x32.size a ≤ S512x4096.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S16384x256.size a
  hwx0_1 : ∀ i : grid0.Coords, EltTy.bits .f32 = 32 ∨ (Rect.block (s := S16384x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S16384x256.size a
  hwx0_2 : ∀ i : grid0.Coords, EltTy.bits .f32 = 32 ∨ (Rect.block (s := S16384x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S16384x256.size a
  hwx0_3 : ∀ i : grid0.Coords, EltTy.bits .f32 = 32 ∨ (Rect.block (s := S16384x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S16384x256.size a
  hwx0_4 : ∀ i : grid0.Coords, EltTy.bits .f32 = 32 ∨ (Rect.block (s := S16384x256) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S16384x256.size a
  hwx0_5 : ∀ i : grid0.Coords, EltTy.bits .f32 = 32 ∨ (Rect.block (s := S16384x256) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S16384x256.size a
  hwx0_6 : ∀ i : grid0.Coords, EltTy.bits .f32 = 32 ∨ (Rect.block (s := S16384x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S16384x256.size a
  hwx0_7 : ∀ i : grid0.Coords, EltTy.bits .f32 = 32 ∨ (Rect.block (s := S16384x256) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S16384x256.size a
  hwx0_8 : ∀ i : grid0.Coords, EltTy.bits .f32 = 32 ∨ (Rect.block (s := S16384x256) S512x256.size (cc0_transform_8 i) (hinb0_8 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S512x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_3) S512x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_4) S512x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_5) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_6) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_7) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S16384x2048 : Shape := ⟨2, ![16384, 2048]⟩
abbrev S16384x256 : Shape := ⟨2, ![16384, 256]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S16384x2048, .f32⟩
  | .hbm, ⟨21, _⟩ => ⟨S16384x2048, .i1⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S16384x2048_1 : S2048.BroadcastsInDim S16384x2048 (![1] : Fin 1 → Fin S16384x2048.rank)
  bcast_S_S16384x2048 : S_.BroadcastsInDim S16384x2048 (![] : Fin 0 → Fin S16384x2048.rank)
  slices_S16384x2048_S16384x256_0_0 : S16384x2048.Slices ![0, 0] S16384x256
  slices_S16384x2048_S16384x256_0_256 : S16384x2048.Slices ![0, 256] S16384x256
  slices_S16384x2048_S16384x256_0_512 : S16384x2048.Slices ![0, 512] S16384x256
  slices_S16384x2048_S16384x256_0_768 : S16384x2048.Slices ![0, 768] S16384x256
  slices_S16384x2048_S16384x256_0_1024 : S16384x2048.Slices ![0, 1024] S16384x256
  slices_S16384x2048_S16384x256_0_1280 : S16384x2048.Slices ![0, 1280] S16384x256
  slices_S16384x2048_S16384x256_0_1536 : S16384x2048.Slices ![0, 1536] S16384x256
  slices_S16384x2048_S16384x256_0_1792 : S16384x2048.Slices ![0, 1792] S16384x256
  gather_S16384x4096_S2048x1_S16384x2048_0_1_n_n_1_1_163841_wf : GatherDims.WF S16384x4096 S2048x1 S16384x2048 [0] [1] [] [1] [] 1 ![16384, 1]

variable [Facts₀]

def gather_S16384x4096_S2048x1_S16384x2048_0_1_n_n_1_1_163841 : GatherDims S16384x4096 S2048x1 S16384x2048 where
  offsetDims := [0]
  collapsedSliceDims := [1]
  operandBatchingDims := []
  startIndicesBatchingDims := []
  startIndexMap := [1]
  indexVectorDim := 1
  sliceSizes := ![16384, 1]
  wf := gather_S16384x4096_S2048x1_S16384x2048_0_1_n_n_1_1_163841_wf

class Facts : Prop extends Facts₀ where

variable [Facts]
-- ==== Proof.Spec.lean ====
/-
  The specification: which input column each output column is.

  The input is a [16384, 4096] array. There are eight outputs, each [16384, 256]. Output `g` keeps, from the 512
  input columns `512 g … 512 g + 511`, the first 32 of every 64: its column `q` is input column
  `512 g + 64 (q / 32) + q mod 32`, and rows are kept. `pick g X` is output `g` as a function of the input `X`.
-/
import Idealize.ShloMosaic.Lib.ValueIdx

noncomputable section

namespace Cert.Spec

open Idealize.ShloMosaic Idealize.ShloMosaic.ValueIdx

/-- The input column under column `q` of output `g`. -/
def col (g q : Nat) : Nat := g * 512 + q / 32 * 64 + q % 32

theorem col_lt (g q : Nat) (hg : g < 8) (hq : q < 256) : col g q < 4096 := by
  unfold col; omega

/-- Output `g` as a function of the input array: entry `(r, q)` is the input's entry `(r, col g q)`. -/
def pick {α : Type} (g : Fin 8) (X : (⟨2, ![16384, 4096]⟩ : Shape).Idx → α) : (⟨2, ![16384, 256]⟩ : Shape).Idx → α :=
  fun i => X (ix2 (⟨(i 0).val, idx2_lt0 i⟩ : Fin 16384) (⟨col g.val (i 1).val, col_lt _ _ g.isLt (idx2_lt1 i)⟩ : Fin 4096))

/-- `pick` read at `(r, q)`, for any way of writing the input's column. -/
theorem pick_apply {α : Type} (g : Fin 8) (X : (⟨2, ![16384, 4096]⟩ : Shape).Idx → α) (r : Fin 16384) (q : Fin 256)
    (k : Fin 4096) (hk : k.val = col g.val q.val) : pick g X (ix2 r q) = X (ix2 r k) := by
  unfold pick
  exact congrArg X (by
    funext a
    match a with
    | ⟨0, _⟩ => rfl
    | ⟨1, _⟩ => exact Fin.ext hk.symm)

/-- `pick` read at any index `i`, for any way of writing the input's index `k` under it. -/
theorem pick_at {α : Type} (g : Fin 8) (X : (⟨2, ![16384, 4096]⟩ : Shape).Idx → α) (i : (⟨2, ![16384, 256]⟩ : Shape).Idx)
    (k : (⟨2, ![16384, 4096]⟩ : Shape).Idx) (h0 : (k 0).val = (i 0).val) (h1 : (k 1).val = col g.val (i 1).val) :
    pick g X i = X k := by
  unfold pick
  exact congrArg X (by
    funext a
    match a with
    | ⟨0, _⟩ => exact Fin.ext h0.symm
    | ⟨1, _⟩ => exact Fin.ext h1.symm)

end Cert.Spec

end
-- ==== Proof.KernelSlices.lean ====
/-
  One grid point's eight output blocks, read at an index.

  At a grid point the kernel's body holds a [512, 4096] block `x0` of the input (512 rows, all columns). For
  each group `g` it loads the eight [512, 32] column slices of `x0` that start at columns `512 g + 64 j`
  (`j = 0 … 7`), joins them along the columns into one [512, 256] array and stores it whole as output `g`'s
  block. Entry `(a, q)` of that block lies in slice `q / 32` at column `q mod 32`, so it is `x0` at
  `(a, 512 g + 64 (q / 32) + q mod 32)`: the specification's `col g q`.
-/
import proofs.«155785_j5720896438285_2_alg».proof.Proof.Gen.KernelIdeal.Value
import proofs.«155785_j5720896438285_2_alg».proof.Proof.Spec
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-- A [512, 32] slice of a [512, 4096] block taken from column `off`, read at `(a, b)`, is the block at
    `(a, off + b)`. -/
theorem ld_slice (x0 : Vec F S512x4096 .f32) (off : Nat)
    (inb : ∀ a, (![0, off] : Fin 2 → Nat) a + S512x32.size a ≤ S512x4096.size a)
    (j : S512x32.Idx) (k : Fin 4096) (hk : k.val = off + (j 1).val) :
    View.ld x0 (Rect.unit (s := S512x4096) ![0, off] S512x32.size inb) j
      = x0 (ix2 (⟨(j 0).val, idx2_lt0 j⟩ : Fin 512) k) := by
  show x0 ((Rect.unit (s := S512x4096) ![0, off] S512x32.size inb).idx j) = _
  refine congrArg x0 (funext fun a => Fin.ext ?_)
  match a with
  | ⟨0, _⟩ => show 0 + 1 * (j 0).val = (j 0).val; omega
  | ⟨1, _⟩ => show off + 1 * (j 1).val = k.val; omega

/-- EIGHT SLICES SIDE BY SIDE. The eight [512, 32] slices of a block `x0` taken from columns `b`, `b + 64`, …,
    `b + 448`, joined along the columns into a [512, 256] array, read at `(a, q)`: slice `q / 32` at column
    `q mod 32`, which is `x0` at `(a, b + 64 (q / 32) + q mod 32)`. -/
theorem cat_slices (x0 : Vec F S512x4096 .f32) (b : Nat)
    (inb0 : ∀ a, (![0, b] : Fin 2 → Nat) a + S512x32.size a ≤ S512x4096.size a)
    (inb1 : ∀ a, (![0, b + 64] : Fin 2 → Nat) a + S512x32.size a ≤ S512x4096.size a)
    (inb2 : ∀ a, (![0, b + 128] : Fin 2 → Nat) a + S512x32.size a ≤ S512x4096.size a)
    (inb3 : ∀ a, (![0, b + 192] : Fin 2 → Nat) a + S512x32.size a ≤ S512x4096.size a)
    (inb4 : ∀ a, (![0, b + 256] : Fin 2 → Nat) a + S512x32.size a ≤ S512x4096.size a)
    (inb5 : ∀ a, (![0, b + 320] : Fin 2 → Nat) a + S512x32.size a ≤ S512x4096.size a)
    (inb6 : ∀ a, (![0, b + 384] : Fin 2 → Nat) a + S512x32.size a ≤ S512x4096.size a)
    (inb7 : ∀ a, (![0, b + 448] : Fin 2 → Nat) a + S512x32.size a ≤ S512x4096.size a)
    (y : S512x256.Idx) (k : Fin 4096) (hk : k.val = b + (y 1).val / 32 * 64 + (y 1).val % 32) :
    Value.E1 (View.ld x0 (Rect.unit (s := S512x4096) ![0, b] S512x32.size inb0))
        (View.ld x0 (Rect.unit (s := S512x4096) ![0, b + 64] S512x32.size inb1))
        (View.ld x0 (Rect.unit (s := S512x4096) ![0, b + 128] S512x32.size inb2))
        (View.ld x0 (Rect.unit (s := S512x4096) ![0, b + 192] S512x32.size inb3))
        (View.ld x0 (Rect.unit (s := S512x4096) ![0, b + 256] S512x32.size inb4))
        (View.ld x0 (Rect.unit (s := S512x4096) ![0, b + 320] S512x32.size inb5))
        (View.ld x0 (Rect.unit (s := S512x4096) ![0, b + 384] S512x32.size inb6))
        (View.ld x0 (Rect.unit (s := S512x4096) ![0, b + 448] S512x32.size inb7)) y
      = x0 (ix2 (⟨(y 0).val, idx2_lt0 y⟩ : Fin 512) k) := by
  have hy : (y 1).val < 256 := idx2_lt1 y
  show Value.Cat1_0 _ _ _ _ _ _ _ _ (Value.csel1_0 y) (Value.ix1_0 y) = _
  generalize hn : Value.csel1_0 y = n
  have hnv : n.val = (y 1).val / 32 := by rw [← hn]
  match n, hnv with
  | ⟨0, _⟩, h => exact ld_slice x0 b _ (Value.ix1_0 y) k (by have h' : 0 = (y 1).val / 32 := h; show k.val = b + (y 1).val % 32; omega)
  | ⟨1, _⟩, h => exact ld_slice x0 (b + 64) _ (Value.ix1_0 y) k (by have h' : 1 = (y 1).val / 32 := h; show k.val = b + 64 + (y 1).val % 32; omega)
  | ⟨2, _⟩, h => exact ld_slice x0 (b + 128) _ (Value.ix1_0 y) k (by have h' : 2 = (y 1).val / 32 := h; show k.val = b + 128 + (y 1).val % 32; omega)
  | ⟨3, _⟩, h => exact ld_slice x0 (b + 192) _ (Value.ix1_0 y) k (by have h' : 3 = (y 1).val / 32 := h; show k.val = b + 192 + (y 1).val % 32; omega)
  | ⟨4, _⟩, h => exact ld_slice x0 (b + 256) _ (Value.ix1_0 y) k (by have h' : 4 = (y 1).val / 32 := h; show k.val = b + 256 + (y 1).val % 32; omega)
  | ⟨5, _⟩, h => exact ld_slice x0 (b + 320) _ (Value.ix1_0 y) k (by have h' : 5 = (y 1).val / 32 := h; show k.val = b + 320 + (y 1).val % 32; omega)
  | ⟨6, _⟩, h => exact ld_slice x0 (b + 384) _ (Value.ix1_0 y) k (by have h' : 6 = (y 1).val / 32 := h; show k.val = b + 384 + (y 1).val % 32; omega)
  | ⟨7, _⟩, h => exact ld_slice x0 (b + 448) _ (Value.ix1_0 y) k (by have h' : 7 = (y 1).val / 32 := h; show k.val = b + 448 + (y 1).val % 32; omega)

/-- Output block 0 of a point, from the point's input block `x0`: entry `(a, q)` is `x0` at `(a, col 0 q)`. -/
theorem out1_apply (x0 : Vec F S512x4096 .f32) (y : S512x256.Idx) (k : Fin 4096) (hk : k.val = Spec.col 0 (y 1).val) :
    out0_1 x0 y = x0 (ix2 (⟨(y 0).val, idx2_lt0 y⟩ : Fin 512) k) := by
  unfold out0_1
  exact (Value.canon1_eq _ _ _ _ _ _ _ _ y).trans (cat_slices x0 0 _ _ _ _ _ _ _ _ y k (by rw [hk]; unfold Spec.col; omega))

/-- Output block 1: entry `(a, q)` is `x0` at `(a, col 1 q)`. -/
theorem out2_apply (x0 : Vec F S512x4096 .f32) (y : S512x256.Idx) (k : Fin 4096) (hk : k.val = Spec.col 1 (y 1).val) :
    out0_2 x0 y = x0 (ix2 (⟨(y 0).val, idx2_lt0 y⟩ : Fin 512) k) := by
  unfold out0_2
  exact (Value.canon2_eq _ _ _ _ _ _ _ _ y).trans (cat_slices x0 512 _ _ _ _ _ _ _ _ y k (by rw [hk]; unfold Spec.col; omega))

/-- Output block 2: entry `(a, q)` is `x0` at `(a, col 2 q)`. -/
theorem out3_apply (x0 : Vec F S512x4096 .f32) (y : S512x256.Idx) (k : Fin 4096) (hk : k.val = Spec.col 2 (y 1).val) :
    out0_3 x0 y = x0 (ix2 (⟨(y 0).val, idx2_lt0 y⟩ : Fin 512) k) := by
  unfold out0_3
  exact (Value.canon3_eq _ _ _ _ _ _ _ _ y).trans (cat_slices x0 1024 _ _ _ _ _ _ _ _ y k (by rw [hk]; unfold Spec.col; omega))

/-- Output block 3: entry `(a, q)` is `x0` at `(a, col 3 q)`. -/
theorem out4_apply (x0 : Vec F S512x4096 .f32) (y : S512x256.Idx) (k : Fin 4096) (hk : k.val = Spec.col 3 (y 1).val) :
    out0_4 x0 y = x0 (ix2 (⟨(y 0).val, idx2_lt0 y⟩ : Fin 512) k) := by
  unfold out0_4
  exact (Value.canon4_eq _ _ _ _ _ _ _ _ y).trans (cat_slices x0 1536 _ _ _ _ _ _ _ _ y k (by rw [hk]; unfold Spec.col; omega))

/-- Output block 4: entry `(a, q)` is `x0` at `(a, col 4 q)`. -/
theorem out5_apply (x0 : Vec F S512x4096 .f32) (y : S512x256.Idx) (k : Fin 4096) (hk : k.val = Spec.col 4 (y 1).val) :
    out0_5 x0 y = x0 (ix2 (⟨(y 0).val, idx2_lt0 y⟩ : Fin 512) k) := by
  unfold out0_5
  exact (Value.canon5_eq _ _ _ _ _ _ _ _ y).trans (cat_slices x0 2048 _ _ _ _ _ _ _ _ y k (by rw [hk]; unfold Spec.col; omega))

/-- Output block 5: entry `(a, q)` is `x0` at `(a, col 5 q)`. -/
theorem out6_apply (x0 : Vec F S512x4096 .f32) (y : S512x256.Idx) (k : Fin 4096) (hk : k.val = Spec.col 5 (y 1).val) :
    out0_6 x0 y = x0 (ix2 (⟨(y 0).val, idx2_lt0 y⟩ : Fin 512) k) := by
  unfold out0_6
  exact (Value.canon6_eq _ _ _ _ _ _ _ _ y).trans (cat_slices x0 2560 _ _ _ _ _ _ _ _ y k (by rw [hk]; unfold Spec.col; omega))

/-- Output block 6: entry `(a, q)` is `x0` at `(a, col 6 q)`. -/
theorem out7_apply (x0 : Vec F S512x4096 .f32) (y : S512x256.Idx) (k : Fin 4096) (hk : k.val = Spec.col 6 (y 1).val) :
    out0_7 x0 y = x0 (ix2 (⟨(y 0).val, idx2_lt0 y⟩ : Fin 512) k) := by
  unfold out0_7
  exact (Value.canon7_eq _ _ _ _ _ _ _ _ y).trans (cat_slices x0 3072 _ _ _ _ _ _ _ _ y k (by rw [hk]; unfold Spec.col; omega))

/-- Output block 7: entry `(a, q)` is `x0` at `(a, col 7 q)`. -/
theorem out8_apply (x0 : Vec F S512x4096 .f32) (y : S512x256.Idx) (k : Fin 4096) (hk : k.val = Spec.col 7 (y 1).val) :
    out0_8 x0 y = x0 (ix2 (⟨(y 0).val, idx2_lt0 y⟩ : Fin 512) k) := by
  unfold out0_8
  exact (Value.canon8_eq _ _ _ _ _ _ _ _ y).trans (cat_slices x0 3584 _ _ _ _ _ _ _ _ y k (by rw [hk]; unfold Spec.col; omega))

end Cert.KernelIdeal.Blocks

end
-- ==== Proof.KernelArraysA.lean ====
/-
  From a point's blocks to the whole output arrays (outputs 0 to 3).

  The grid has 32 points; point `t` holds rows `512 t … 512 t + 511` of the input (all 4096 columns) and writes
  rows `512 t … 512 t + 511` of every output (all 256 columns). What it writes to output `g` is, by the
  block lemma, block `t` of `pick g` of the input array: the block's entry `(a, q)` is the input block's entry
  `(a, col g q)`, and both blocks sit at row offset `512 t`. Every row of an output lies in exactly the block of
  point `row / 512`, so the blocks cover the array and the array ends holding `pick g` of the input.
-/
import proofs.«155785_j5720896438285_2_alg».proof.Proof.KernelSlices

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## Output 0 -/

/-- The index maps over the grid: the input window and output 0's window move together down the rows, one block
    per point, and neither moves along the columns. -/
theorem idx_facts1 : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- What point `t` writes back to output 0 is block `t` of `pick 0` of the input array. -/
theorem flushed1_eq (c : Dev nD) (t : Fin cfg0.N) :
    (dats m 0 c).flushed 1 t = ((cfg0.win 1).blk t).view.read (Elt F) (Spec.pick 0 (V m c main_arg0)) := by
  rw [Value.flushed1]
  obtain ⟨e0, e1, e2, e3⟩ := idx_facts1 t
  funext y
  have hy0 : (y 0).val < 512 := (y 0).isLt
  have hy1 : (y 1).val < 256 := (y 1).isLt
  show out0_1 (iblk m c 0 t) y = Spec.pick 0 (V m c main_arg0) (((cfg0.win 1).blk t).view.emb y)
  refine (out1_apply (iblk m c 0 t) y ⟨Spec.col 0 (y 1).val, Spec.col_lt _ _ (by decide) hy1⟩ rfl).trans ?_
  show V m c main_arg0 (((cfg0.win 0).blk t).view.emb _) = _
  refine (Spec.pick_at 0 _ _ _ ?_ ?_).symm
  · show win0_0.index t (0 : Fin 2) * 512 + 1 * (y 0).val = win0_1.index t (0 : Fin 2) * 512 + 1 * (y 0).val
    omega
  · show win0_0.index t (1 : Fin 2) * 4096 + 1 * Spec.col 0 (y 1).val
      = Spec.col 0 (win0_1.index t (1 : Fin 2) * 256 + 1 * (y 1).val)
    rw [e1, e2]
    simp only [Nat.zero_mul, Nat.zero_add, Nat.one_mul]

/-- An index of output 0's array is in point `t`'s block iff each coordinate is in the block's range on its axis. -/
theorem mem_blk1 (t : Fin cfg0.N) (i : S16384x256.Idx) :
    i ∈ ((cfg0.win 1).blk t).view.set ↔ ∀ a : Fin 2, win0_1.index t a * S512x256.size a ≤ (i a).val
      ∧ (i a).val < win0_1.index t a * S512x256.size a + S512x256.size a := by
  show i ∈ ((View.whole main_v0_0).slice (win0_1.rect t)).set ↔ _
  rw [View.set_slice_whole, Rect.mem_set_unit]
  exact Iff.rfl

/-- Every index of output 0's array is in the block of the point its row falls in: row `r` in point `r / 512`. -/
theorem cover1 (i : S16384x256.Idx) :
    ∃ t : Fin cfg0.N, (cfg0.win 1).flush t = true ∧ i ∈ ((cfg0.win 1).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts1 ⟨(i 0).val / 512, hlt⟩
  have e3' : win0_1.index ⟨(i 0).val / 512, hlt⟩ (0 : Fin 2) = (i 0).val / 512 := e3
  refine ⟨⟨(i 0).val / 512, hlt⟩, flush0_1 _, ?_⟩
  rw [mem_blk1]
  intro a
  match a with
  | ⟨0, _⟩ =>
    show win0_1.index ⟨(i 0).val / 512, hlt⟩ (0 : Fin 2) * 512 ≤ (i 0).val
      ∧ (i 0).val < win0_1.index ⟨(i 0).val / 512, hlt⟩ (0 : Fin 2) * 512 + 512
    rw [e3']; omega
  | ⟨1, _⟩ =>
    show win0_1.index ⟨(i 0).val / 512, hlt⟩ (1 : Fin 2) * 256 ≤ (i 1).val
      ∧ (i 1).val < win0_1.index ⟨(i 0).val / 512, hlt⟩ (1 : Fin 2) * 256 + 256
    rw [e2]; omega

/-- Output 0's array after the run is `pick 0` of the input array. -/
theorem final1 (c : Dev nD) : (dats m 0 c).arrAt 1 cfg0.N = Spec.pick 0 (m ((c : Thread nD τ).loc main_arg0)) :=
  (dats m 0 c).arrAt_eq_of_cover 1 (Spec.pick 0 (V m c main_arg0)) (fun t _ => flushed1_eq m c t) cover1

/-! ## Output 1 -/

theorem idx_facts2 : ∀ t : Fin cfg0.N, win0_0.index t (0 : Fin 2) = win0_2.index t (0 : Fin 2)
    ∧ win0_0.index t (1 : Fin 2) = 0 ∧ win0_2.index t (1 : Fin 2) = 0 ∧ win0_2.index t (0 : Fin 2) = t.val :=
  (by decide +kernel : ∀ t : Fin grid0.N, _)

/-- What point `t` writes back to output 1 is block `t` of `pick 1` of the input array. -/
theorem flushed2_eq (c : Dev nD) (t : Fin cfg0.N) :
    (dats m 0 c).flushed 2 t = ((cfg0.win 2).blk t).view.read (Elt F) (Spec.pick 1 (V m c main_arg0)) := by
  rw [Value.flushed2]
  obtain ⟨e0, e1, e2, e3⟩ := idx_facts2 t
  funext y
  have hy0 : (y 0).val < 512 := (y 0).isLt
  have hy1 : (y 1).val < 256 := (y 1).isLt
  show out0_2 (iblk m c 0 t) y = Spec.pick 1 (V m c main_arg0) (((cfg0.win 2).blk t).view.emb y)
  refine (out2_apply (iblk m c 0 t) y ⟨Spec.col 1 (y 1).val, Spec.col_lt _ _ (by decide) hy1⟩ rfl).trans ?_
  show V m c main_arg0 (((cfg0.win 0).blk t).view.emb _) = _
  refine (Spec.pick_at 1 _ _ _ ?_ ?_).symm
  · show win0_0.index t (0 : Fin 2) * 512 + 1 * (y 0).val = win0_2.index t (0 : Fin 2) * 512 + 1 * (y 0).val
    omega
  · show win0_0.index t (1 : Fin 2) * 4096 + 1 * Spec.col 1 (y 1).val
      = Spec.col 1 (win0_2.index t (1 : Fin 2) * 256 + 1 * (y 1).val)
    rw [e1, e2]
    simp only [Nat.zero_mul, Nat.zero_add, Nat.one_mul]

theorem mem_blk2 (t : Fin cfg0.N) (i : S16384x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v0_1).slice (win0_2.rect t)).set ↔ _
  rw [View.set_slice_whole, Rect.mem_set_unit]
  exact Iff.rfl

theorem cover2 (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts2 ⟨(i 0).val / 512, hlt⟩
  have e3' : win0_2.index ⟨(i 0).val / 512, hlt⟩ (0 : Fin 2) = (i 0).val / 512 := e3
  refine ⟨⟨(i 0).val / 512, hlt⟩, flush0_2 _, ?_⟩
  rw [mem_blk2]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e3']; omega
  | ⟨1, _⟩ =>
    show win0_2.index ⟨(i 0).val / 512, hlt⟩ (1 : Fin 2) * 256 ≤ (i 1).val
      ∧ (i 1).val < win0_2.index ⟨(i 0).val / 512, hlt⟩ (1 : Fin 2) * 256 + 256
    rw [e2]; omega

/-- Output 1's array after the run is `pick 1` of the input array. -/
theorem final2 (c : Dev nD) : (dats m 0 c).arrAt 2 cfg0.N = Spec.pick 1 (m ((c : Thread nD τ).loc main_arg0)) :=
  (dats m 0 c).arrAt_eq_of_cover 2 (Spec.pick 1 (V m c main_arg0)) (fun t _ => flushed2_eq m c t) cover2

/-! ## Output 2 -/

theorem idx_facts3 : ∀ t : Fin cfg0.N, win0_0.index t (0 : Fin 2) = win0_3.index t (0 : Fin 2)
    ∧ win0_0.index t (1 : Fin 2) = 0 ∧ win0_3.index t (1 : Fin 2) = 0 ∧ win0_3.index t (0 : Fin 2) = t.val :=
  (by decide +kernel : ∀ t : Fin grid0.N, _)

/-- What point `t` writes back to output 2 is block `t` of `pick 2` of the input array. -/
theorem flushed3_eq (c : Dev nD) (t : Fin cfg0.N) :
    (dats m 0 c).flushed 3 t = ((cfg0.win 3).blk t).view.read (Elt F) (Spec.pick 2 (V m c main_arg0)) := by
  rw [Value.flushed3]
  obtain ⟨e0, e1, e2, e3⟩ := idx_facts3 t
  funext y
  have hy0 : (y 0).val < 512 := (y 0).isLt
  have hy1 : (y 1).val < 256 := (y 1).isLt
  show out0_3 (iblk m c 0 t) y = Spec.pick 2 (V m c main_arg0) (((cfg0.win 3).blk t).view.emb y)
  refine (out3_apply (iblk m c 0 t) y ⟨Spec.col 2 (y 1).val, Spec.col_lt _ _ (by decide) hy1⟩ rfl).trans ?_
  show V m c main_arg0 (((cfg0.win 0).blk t).view.emb _) = _
  refine (Spec.pick_at 2 _ _ _ ?_ ?_).symm
  · show win0_0.index t (0 : Fin 2) * 512 + 1 * (y 0).val = win0_3.index t (0 : Fin 2) * 512 + 1 * (y 0).val
    omega
  · show win0_0.index t (1 : Fin 2) * 4096 + 1 * Spec.col 2 (y 1).val
      = Spec.col 2 (win0_3.index t (1 : Fin 2) * 256 + 1 * (y 1).val)
    rw [e1, e2]
    simp only [Nat.zero_mul, Nat.zero_add, Nat.one_mul]

theorem mem_blk3 (t : Fin cfg0.N) (i : S16384x256.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v0_2).slice (win0_3.rect t)).set ↔ _
  rw [View.set_slice_whole, Rect.mem_set_unit]
  exact Iff.rfl

theorem cover3 (i : S16384x256.Idx) :
    ∃ t : Fin cfg0.N, (cfg0.win 3).flush t = true ∧ i ∈ ((cfg0.win 3).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts3 ⟨(i 0).val / 512, hlt⟩
  have e3' : win0_3.index ⟨(i 0).val / 512, hlt⟩ (0 : Fin 2) = (i 0).val / 512 := e3
  refine ⟨⟨(i 0).val / 512, hlt⟩, flush0_3 _, ?_⟩
  rw [mem_blk3]
  intro a
  match a with
  | ⟨0, _⟩ =>
    show win0_3.index ⟨(i 0).val / 512, hlt⟩ (0 : Fin 2) * 512 ≤ (i 0).val
      ∧ (i 0).val < win0_3.index ⟨(i 0).val / 512, hlt⟩ (0 : Fin 2) * 512 + 512
    rw [e3']; omega
  | ⟨1, _⟩ =>
    show win0_3.index ⟨(i 0).val / 512, hlt⟩ (1 : Fin 2) * 256 ≤ (i 1).val
      ∧ (i 1).val < win0_3.index ⟨(i 0).val / 512, hlt⟩ (1 : Fin 2) * 256 + 256
    rw [e2]; omega

/-- Output 2's array after the run is `pick 2` of the input array. -/
theorem final3 (c : Dev nD) : (dats m 0 c).arrAt 3 cfg0.N = Spec.pick 2 (m ((c : Thread nD τ).loc main_arg0)) :=
  (dats m 0 c).arrAt_eq_of_cover 3 (Spec.pick 2 (V m c main_arg0)) (fun t _ => flushed3_eq m c t) cover3

/-! ## Output 3 -/

theorem idx_facts4 : ∀ t : Fin cfg0.N, win0_0.index t (0 : Fin 2) = win0_4.index t (0 : Fin 2)
    ∧ win0_0.index t (1 : Fin 2) = 0 ∧ win0_4.index t (1 : Fin 2) = 0 ∧ win0_4.index t (0 : Fin 2) = t.val :=
  (by decide +kernel : ∀ t : Fin grid0.N, _)

/-- What point `t` writes back to output 3 is block `t` of `pick 3` of the input array. -/
theorem flushed4_eq (c : Dev nD) (t : Fin cfg0.N) :
    (dats m 0 c).flushed 4 t = ((cfg0.win 4).blk t).view.read (Elt F) (Spec.pick 3 (V m c main_arg0)) := by
  rw [Value.flushed4]
  obtain ⟨e0, e1, e2, e3⟩ := idx_facts4 t
  funext y
  have hy0 : (y 0).val < 512 := (y 0).isLt
  have hy1 : (y 1).val < 256 := (y 1).isLt
  show out0_4 (iblk m c 0 t) y = Spec.pick 3 (V m c main_arg0) (((cfg0.win 4).blk t).view.emb y)
  refine (out4_apply (iblk m c 0 t) y ⟨Spec.col 3 (y 1).val, Spec.col_lt _ _ (by decide) hy1⟩ rfl).trans ?_
  show V m c main_arg0 (((cfg0.win 0).blk t).view.emb _) = _
  refine (Spec.pick_at 3 _ _ _ ?_ ?_).symm
  · show win0_0.index t (0 : Fin 2) * 512 + 1 * (y 0).val = win0_4.index t (0 : Fin 2) * 512 + 1 * (y 0).val
    omega
  · show win0_0.index t (1 : Fin 2) * 4096 + 1 * Spec.col 3 (y 1).val
      = Spec.col 3 (win0_4.index t (1 : Fin 2) * 256 + 1 * (y 1).val)
    rw [e1, e2]
    simp only [Nat.zero_mul, Nat.zero_add, Nat.one_mul]

theorem mem_blk4 (t : Fin cfg0.N) (i : S16384x256.Idx) :
    i ∈ ((cfg0.win 4).blk t).view.set ↔ ∀ a : Fin 2, win0_4.index t a * S512x256.size a ≤ (i a).val
      ∧ (i a).val < win0_4.index t a * S512x256.size a + S512x256.size a := by
  show i ∈ ((View.whole main_v0_3).slice (win0_4.rect t)).set ↔ _
  rw [View.set_slice_whole, Rect.mem_set_unit]
  exact Iff.rfl

theorem cover4 (i : S16384x256.Idx) :
    ∃ t : Fin cfg0.N, (cfg0.win 4).flush t = true ∧ i ∈ ((cfg0.win 4).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts4 ⟨(i 0).val / 512, hlt⟩
  have e3' : win0_4.index ⟨(i 0).val / 512, hlt⟩ (0 : Fin 2) = (i 0).val / 512 := e3
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e3']; omega
  | ⟨1, _⟩ =>
    show win0_4.index ⟨(i 0).val / 512, hlt⟩ (1 : Fin 2) * 256 ≤ (i 1).val
      ∧ (i 1).val < win0_4.index ⟨(i 0).val / 512, hlt⟩ (1 : Fin 2) * 256 + 256
    rw [e2]; omega

/-- Output 3's array after the run is `pick 3` of the input array. -/
theorem final4 (c : Dev nD) : (dats m 0 c).arrAt 4 cfg0.N = Spec.pick 3 (m ((c : Thread nD τ).loc main_arg0)) :=
  (dats m 0 c).arrAt_eq_of_cover 4 (Spec.pick 3 (V m c main_arg0)) (fun t _ => flushed4_eq m c t) cover4

end Cert.KernelIdeal.Blocks

end
-- ==== Proof.KernelArraysB.lean ====
/-
  From a point's blocks to the whole output arrays (outputs 4 to 7).

  The grid has 32 points; point `t` holds rows `512 t … 512 t + 511` of the input (all 4096 columns) and writes
  rows `512 t … 512 t + 511` of every output (all 256 columns). What it writes to output `g` is, by the
  block lemma, block `t` of `pick g` of the input array: the block's entry `(a, q)` is the input block's entry
  `(a, col g q)`, and both blocks sit at row offset `512 t`. Every row of an output lies in exactly the block of
  point `row / 512`, so the blocks cover the array and the array ends holding `pick g` of the input.
-/
import proofs.«155785_j5720896438285_2_alg».proof.Proof.KernelSlices

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-! ## Output 4 -/

/-- The index maps over the grid: the input window and output 4's window move together down the rows, one block
    per point, and neither moves along the columns. -/
theorem idx_facts5 : ∀ t : Fin cfg0.N, win0_0.index t (0 : Fin 2) = win0_5.index t (0 : Fin 2)
    ∧ win0_0.index t (1 : Fin 2) = 0 ∧ win0_5.index t (1 : Fin 2) = 0 ∧ win0_5.index t (0 : Fin 2) = t.val :=
  (by decide +kernel : ∀ t : Fin grid0.N, _)

/-- What point `t` writes back to output 4 is block `t` of `pick 4` of the input array. -/
theorem flushed5_eq (c : Dev nD) (t : Fin cfg0.N) :
    (dats m 0 c).flushed 5 t = ((cfg0.win 5).blk t).view.read (Elt F) (Spec.pick 4 (V m c main_arg0)) := by
  rw [Value.flushed5]
  obtain ⟨e0, e1, e2, e3⟩ := idx_facts5 t
  funext y
  have hy0 : (y 0).val < 512 := (y 0).isLt
  have hy1 : (y 1).val < 256 := (y 1).isLt
  show out0_5 (iblk m c 0 t) y = Spec.pick 4 (V m c main_arg0) (((cfg0.win 5).blk t).view.emb y)
  refine (out5_apply (iblk m c 0 t) y ⟨Spec.col 4 (y 1).val, Spec.col_lt _ _ (by decide) hy1⟩ rfl).trans ?_
  show V m c main_arg0 (((cfg0.win 0).blk t).view.emb _) = _
  refine (Spec.pick_at 4 _ _ _ ?_ ?_).symm
  · show win0_0.index t (0 : Fin 2) * 512 + 1 * (y 0).val = win0_5.index t (0 : Fin 2) * 512 + 1 * (y 0).val
    omega
  · show win0_0.index t (1 : Fin 2) * 4096 + 1 * Spec.col 4 (y 1).val
      = Spec.col 4 (win0_5.index t (1 : Fin 2) * 256 + 1 * (y 1).val)
    rw [e1, e2]
    simp only [Nat.zero_mul, Nat.zero_add, Nat.one_mul]

/-- An index of output 4's array is in point `t`'s block iff each coordinate is in the block's range on its axis. -/
theorem mem_blk5 (t : Fin cfg0.N) (i : S16384x256.Idx) :
    i ∈ ((cfg0.win 5).blk t).view.set ↔ ∀ a : Fin 2, win0_5.index t a * S512x256.size a ≤ (i a).val
      ∧ (i a).val < win0_5.index t a * S512x256.size a + S512x256.size a := by
  show i ∈ ((View.whole main_v0_4).slice (win0_5.rect t)).set ↔ _
  rw [View.set_slice_whole, Rect.mem_set_unit]
  exact Iff.rfl

/-- Every index of output 4's array is in the block of the point its row falls in: row `r` in point `r / 512`. -/
theorem cover5 (i : S16384x256.Idx) :
    ∃ t : Fin cfg0.N, (cfg0.win 5).flush t = true ∧ i ∈ ((cfg0.win 5).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts5 ⟨(i 0).val / 512, hlt⟩
  have e3' : win0_5.index ⟨(i 0).val / 512, hlt⟩ (0 : Fin 2) = (i 0).val / 512 := e3
  refine ⟨⟨(i 0).val / 512, hlt⟩, flush0_5 _, ?_⟩
  rw [mem_blk5]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e3']; omega
  | ⟨1, _⟩ =>
    show win0_5.index ⟨(i 0).val / 512, hlt⟩ (1 : Fin 2) * 256 ≤ (i 1).val
      ∧ (i 1).val < win0_5.index ⟨(i 0).val / 512, hlt⟩ (1 : Fin 2) * 256 + 256
    rw [e2]; omega

/-- Output 4's array after the run is `pick 4` of the input array. -/
theorem final5 (c : Dev nD) : (dats m 0 c).arrAt 5 cfg0.N = Spec.pick 4 (m ((c : Thread nD τ).loc main_arg0)) :=
  (dats m 0 c).arrAt_eq_of_cover 5 (Spec.pick 4 (V m c main_arg0)) (fun t _ => flushed5_eq m c t) cover5

/-! ## Output 5 -/

theorem idx_facts6 : ∀ t : Fin cfg0.N, win0_0.index t (0 : Fin 2) = win0_6.index t (0 : Fin 2)
    ∧ win0_0.index t (1 : Fin 2) = 0 ∧ win0_6.index t (1 : Fin 2) = 0 ∧ win0_6.index t (0 : Fin 2) = t.val :=
  (by decide +kernel : ∀ t : Fin grid0.N, _)

/-- What point `t` writes back to output 5 is block `t` of `pick 5` of the input array. -/
theorem flushed6_eq (c : Dev nD) (t : Fin cfg0.N) :
    (dats m 0 c).flushed 6 t = ((cfg0.win 6).blk t).view.read (Elt F) (Spec.pick 5 (V m c main_arg0)) := by
  rw [Value.flushed6]
  obtain ⟨e0, e1, e2, e3⟩ := idx_facts6 t
  funext y
  have hy0 : (y 0).val < 512 := (y 0).isLt
  have hy1 : (y 1).val < 256 := (y 1).isLt
  show out0_6 (iblk m c 0 t) y = Spec.pick 5 (V m c main_arg0) (((cfg0.win 6).blk t).view.emb y)
  refine (out6_apply (iblk m c 0 t) y ⟨Spec.col 5 (y 1).val, Spec.col_lt _ _ (by decide) hy1⟩ rfl).trans ?_
  show V m c main_arg0 (((cfg0.win 0).blk t).view.emb _) = _
  refine (Spec.pick_at 5 _ _ _ ?_ ?_).symm
  · show win0_0.index t (0 : Fin 2) * 512 + 1 * (y 0).val = win0_6.index t (0 : Fin 2) * 512 + 1 * (y 0).val
    omega
  · show win0_0.index t (1 : Fin 2) * 4096 + 1 * Spec.col 5 (y 1).val
      = Spec.col 5 (win0_6.index t (1 : Fin 2) * 256 + 1 * (y 1).val)
    rw [e1, e2]
    simp only [Nat.zero_mul, Nat.zero_add, Nat.one_mul]

theorem mem_blk6 (t : Fin cfg0.N) (i : S16384x256.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v0_5).slice (win0_6.rect t)).set ↔ _
  rw [View.set_slice_whole, Rect.mem_set_unit]
  exact Iff.rfl

theorem cover6 (i : S16384x256.Idx) :
    ∃ t : Fin cfg0.N, (cfg0.win 6).flush t = true ∧ i ∈ ((cfg0.win 6).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts6 ⟨(i 0).val / 512, hlt⟩
  have e3' : win0_6.index ⟨(i 0).val / 512, hlt⟩ (0 : Fin 2) = (i 0).val / 512 := e3
  refine ⟨⟨(i 0).val / 512, hlt⟩, flush0_6 _, ?_⟩
  rw [mem_blk6]
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [e3']; omega
  | ⟨1, _⟩ =>
    show win0_6.index ⟨(i 0).val / 512, hlt⟩ (1 : Fin 2) * 256 ≤ (i 1).val
      ∧ (i 1).val < win0_6.index ⟨(i 0).val / 512, hlt⟩ (1 : Fin 2) * 256 + 256
    rw [e2]; omega

/-- Output 5's array after the run is `pick 5` of the input array. -/
theorem final6 (c : Dev nD) : (dats m 0 c).arrAt 6 cfg0.N = Spec.pick 5 (m ((c : Thread nD τ).loc main_arg0)) :=
  (dats m 0 c).arrAt_eq_of_cover 6 (Spec.pick 5 (V m c main_arg0)) (fun t _ => flushed6_eq m c t) cover6

/-! ## Output 6 -/

theorem idx_facts7 : ∀ t : Fin cfg0.N, win0_0.index t (0 : Fin 2) = win0_7.index t (0 : Fin 2)
    ∧ win0_0.index t (1 : Fin 2) = 0 ∧ win0_7.index t (1 : Fin 2) = 0 ∧ win0_7.index t (0 : Fin 2) = t.val :=
  (by decide +kernel : ∀ t : Fin grid0.N, _)

/-- What point `t` writes back to output 6 is block `t` of `pick 6` of the input array. -/
theorem flushed7_eq (c : Dev nD) (t : Fin cfg0.N) :
    (dats m 0 c).flushed 7 t = ((cfg0.win 7).blk t).view.read (Elt F) (Spec.pick 6 (V m c main_arg0)) := by
  rw [Value.flushed7]
  obtain ⟨e0, e1, e2, e3⟩ := idx_facts7 t
  funext y
  have hy0 : (y 0).val < 512 := (y 0).isLt
  have hy1 : (y 1).val < 256 := (y 1).isLt
  show out0_7 (iblk m c 0 t) y = Spec.pick 6 (V m c main_arg0) (((cfg0.win 7).blk t).view.emb y)
  refine (out7_apply (iblk m c 0 t) y ⟨Spec.col 6 (y 1).val, Spec.col_lt _ _ (by decide) hy1⟩ rfl).trans ?_
  show V m c main_arg0 (((cfg0.win 0).blk t).view.emb _) = _
  refine (Spec.pick_at 6 _ _ _ ?_ ?_).symm
  · show win0_0.index t (0 : Fin 2) * 512 + 1 * (y 0).val = win0_7.index t (0 : Fin 2) * 512 + 1 * (y 0).val
    omega
  · show win0_0.index t (1 : Fin 2) * 4096 + 1 * Spec.col 6 (y 1).val
      = Spec.col 6 (win0_7.index t (1 : Fin 2) * 256 + 1 * (y 1).val)
    rw [e1, e2]
    simp only [Nat.zero_mul, Nat.zero_add, Nat.one_mul]

theorem mem_blk7 (t : Fin cfg0.N) (i : S16384x256.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v0_6).slice (win0_7.rect t)).set ↔ _
  rw [View.set_slice_whole, Rect.mem_set_unit]
  exact Iff.rfl

theorem cover7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts7 ⟨(i 0).val / 512, hlt⟩
  have e3' : win0_7.index ⟨(i 0).val / 512, hlt⟩ (0 : Fin 2) = (i 0).val / 512 := e3
  refine ⟨⟨(i 0).val / 512, hlt⟩, flush0_7 _, ?_⟩
  rw [mem_blk7]
  intro a
  match a with
  | ⟨0, _⟩ =>
    show win0_7.index ⟨(i 0).val / 512, hlt⟩ (0 : Fin 2) * 512 ≤ (i 0).val
      ∧ (i 0).val < win0_7.index ⟨(i 0).val / 512, hlt⟩ (0 : Fin 2) * 512 + 512
    rw [e3']; omega
  | ⟨1, _⟩ =>
    show win0_7.index ⟨(i 0).val / 512, hlt⟩ (1 : Fin 2) * 256 ≤ (i 1).val
      ∧ (i 1).val < win0_7.index ⟨(i 0).val / 512, hlt⟩ (1 : Fin 2) * 256 + 256
    rw [e2]; omega

/-- Output 6's array after the run is `pick 6` of the input array. -/
theorem final7 (c : Dev nD) : (dats m 0 c).arrAt 7 cfg0.N = Spec.pick 6 (m ((c : Thread nD τ).loc main_arg0)) :=
  (dats m 0 c).arrAt_eq_of_cover 7 (Spec.pick 6 (V m c main_arg0)) (fun t _ => flushed7_eq m c t) cover7

/-! ## Output 7 -/

theorem idx_facts8 : ∀ t : Fin cfg0.N, win0_0.index t (0 : Fin 2) = win0_8.index t (0 : Fin 2)
    ∧ win0_0.index t (1 : Fin 2) = 0 ∧ win0_8.index t (1 : Fin 2) = 0 ∧ win0_8.index t (0 : Fin 2) = t.val :=
  (by decide +kernel : ∀ t : Fin grid0.N, _)

/-- What point `t` writes back to output 7 is block `t` of `pick 7` of the input array. -/
theorem flushed8_eq (c : Dev nD) (t : Fin cfg0.N) :
    (dats m 0 c).flushed 8 t = ((cfg0.win 8).blk t).view.read (Elt F) (Spec.pick 7 (V m c main_arg0)) := by
  rw [Value.flushed8]
  obtain ⟨e0, e1, e2, e3⟩ := idx_facts8 t
  funext y
  have hy0 : (y 0).val < 512 := (y 0).isLt
  have hy1 : (y 1).val < 256 := (y 1).isLt
  show out0_8 (iblk m c 0 t) y = Spec.pick 7 (V m c main_arg0) (((cfg0.win 8).blk t).view.emb y)
  refine (out8_apply (iblk m c 0 t) y ⟨Spec.col 7 (y 1).val, Spec.col_lt _ _ (by decide) hy1⟩ rfl).trans ?_
  show V m c main_arg0 (((cfg0.win 0).blk t).view.emb _) = _
  refine (Spec.pick_at 7 _ _ _ ?_ ?_).symm
  · show win0_0.index t (0 : Fin 2) * 512 + 1 * (y 0).val = win0_8.index t (0 : Fin 2) * 512 + 1 * (y 0).val
    omega
  · show win0_0.index t (1 : Fin 2) * 4096 + 1 * Spec.col 7 (y 1).val
      = Spec.col 7 (win0_8.index t (1 : Fin 2) * 256 + 1 * (y 1).val)
    rw [e1, e2]
    simp only [Nat.zero_mul, Nat.zero_add, Nat.one_mul]

theorem mem_blk8 (t : Fin cfg0.N) (i : S16384x256.Idx) :
    i ∈ ((cfg0.win 8).blk t).view.set ↔ ∀ a : Fin 2, win0_8.index t a * S512x256.size a ≤ (i a).val
      ∧ (i a).val < win0_8.index t a * S512x256.size a + S512x256.size a := by
  show i ∈ ((View.whole main_v0_7).slice (win0_8.rect t)).set ↔ _
  rw [View.set_slice_whole, Rect.mem_set_unit]
  exact Iff.rfl

theorem cover8 (i : S16384x256.Idx) :
    ∃ t : Fin cfg0.N, (cfg0.win 8).flush t = true ∧ i ∈ ((cfg0.win 8).blk t).view.set := by
  have hi0 : (i 0).val < 16384 := (i 0).isLt
  have hi1 : (i 1).val < 256 := (i 1).isLt
  have hN : cfg0.N = 32 := N_0
  have hlt : (i 0).val / 512 < cfg0.N := by rw [hN]; omega
  obtain ⟨e0, e1, e2, e3⟩ := idx_facts8 ⟨(i 0).val / 512, hlt⟩
  have e3' : win0_8.index ⟨(i 0).val / 512, hlt⟩ (0 : Fin 2) = (i 0).val / 512 := e3
  refine ⟨⟨(i 0).val / 512, hlt⟩, flush0_8 _, ?_⟩
  rw [mem_blk8]
  intro a
  match a with
  | ⟨0, _⟩ =>
    show win0_8.index ⟨(i 0).val / 512, hlt⟩ (0 : Fin 2) * 512 ≤ (i 0).val
      ∧ (i 0).val < win0_8.index ⟨(i 0).val / 512, hlt⟩ (0 : Fin 2) * 512 + 512
    rw [e3']; omega
  | ⟨1, _⟩ =>
    show win0_8.index ⟨(i 0).val / 512, hlt⟩ (1 : Fin 2) * 256 ≤ (i 1).val
      ∧ (i 1).val < win0_8.index ⟨(i 0).val / 512, hlt⟩ (1 : Fin 2) * 256 + 256
    rw [e2]; omega

/-- Output 7's array after the run is `pick 7` of the input array. -/
theorem final8 (c : Dev nD) : (dats m 0 c).arrAt 8 cfg0.N = Spec.pick 7 (m ((c : Thread nD τ).loc main_arg0)) :=
  (dats m 0 c).arrAt_eq_of_cover 8 (Spec.pick 7 (V m c main_arg0)) (fun t _ => flushed8_eq m c t) cover8

end Cert.KernelIdeal.Blocks

end
-- ==== Proof.KernelRun.lean ====
/-
  The kernel's run, read: every weakly fair execution ends with output `g` holding `pick g` of the input array
  (its column `q` is input column `512 g + 64 (q / 32) + q mod 32`, rows kept), and the input array unchanged.
  This is the generated blockwise run with each output array's final contents replaced by its closed form.
-/
import proofs.«155785_j5720896438285_2_alg».proof.Proof.KernelArraysA
import proofs.«155785_j5720896438285_2_alg».proof.Proof.KernelArraysB

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- On every device, for any float values, from any memory with zero counters: every weakly fair execution of
    @main terminates with output `g` at `pick g` of the input array, and the input array unchanged. -/
theorem run : θ_run defs (onTc (τ := τ) (main (F := F))) ⟨m, fun _ => 0, ρ⟩ fun r => ∀ c : Dev nD,
      r.2.mem ((c : Thread nD τ).loc main_v0_0) = Spec.pick 0 (m ((c : Thread nD τ).loc main_arg0))
      ∧ r.2.mem ((c : Thread nD τ).loc main_v0_1) = Spec.pick 1 (m ((c : Thread nD τ).loc main_arg0))
      ∧ r.2.mem ((c : Thread nD τ).loc main_v0_2) = Spec.pick 2 (m ((c : Thread nD τ).loc main_arg0))
      ∧ r.2.mem ((c : Thread nD τ).loc main_v0_3) = Spec.pick 3 (m ((c : Thread nD τ).loc main_arg0))
      ∧ r.2.mem ((c : Thread nD τ).loc main_v0_4) = Spec.pick 4 (m ((c : Thread nD τ).loc main_arg0))
      ∧ r.2.mem ((c : Thread nD τ).loc main_v0_5) = Spec.pick 5 (m ((c : Thread nD τ).loc main_arg0))
      ∧ r.2.mem ((c : Thread nD τ).loc main_v0_6) = Spec.pick 6 (m ((c : Thread nD τ).loc main_arg0))
      ∧ r.2.mem ((c : Thread nD τ).loc main_v0_7) = Spec.pick 7 (m ((c : Thread nD τ).loc main_arg0))
      ∧ r.2.mem ((c : Thread nD τ).loc main_arg0) = m ((c : Thread nD τ).loc main_arg0) :=
  (θ_run defs _ _).mono (fun r h c => ⟨(h c).1.trans (final1 m c),
      (h c).2.1.trans (final2 m c),
      (h c).2.2.1.trans (final3 m c),
      (h c).2.2.2.1.trans (final4 m c),
      (h c).2.2.2.2.1.trans (final5 m c),
      (h c).2.2.2.2.2.1.trans (final6 m c),
      (h c).2.2.2.2.2.2.1.trans (final7 m c),
      (h c).2.2.2.2.2.2.2.1.trans (final8 m c),
      (h c).2.2.2.2.2.2.2.2⟩)
    (Value.run_blocks m ρ)

end Cert.KernelIdeal.Blocks

end
-- ==== Proof.RefRun.lean ====
/-
  The reference program's run, read back.

  The reference gathers 2048 columns of the input with one `take` along axis 1 and cuts the gathered
  [16384, 2048] array into eight consecutive [16384, 256] column bands. Its @main is a straight line: the
  table of column numbers, the operations of `take` (the negative-index wrap, the in-range mask, the gather,
  the select between the gathered value and the fill) and eight slices. Here that straight line is listed,
  @main is shown to be it, and every weakly fair execution is read off: each result buffer ends at its band
  of `taken X`, the composed term of the operations applied to the input array `X`, and the input is
  unchanged.
-/
import proofs.«155785_j5720896438285_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The table of column numbers, as the vector the program's first constant holds. -/
abbrev cols : IVec S2048 32 := fun i => lit0 (S2048.rowMajor i)

/-- The column numbers `C` after the negative-index wrap `select(c < 0, c + 4096, c)`, as a one-column matrix:
    the start indices the gather reads. -/
abbrev starts (C : IVec S2048 32) : IVec S2048x1 32 :=
  broadcastInDim S2048x1 ![0] bcast_S2048_S2048x1_0
    (select (cmpi .slt C (broadcastInDim S2048 ![] bcast_S_S2048 (constantI S_ 32 0#32)))
      (addi C (broadcastInDim S2048 ![] bcast_S_S2048 (constantI S_ 32 4096#32))) C)

/-- Per gathered column, whether its start index lies in `[0, 4095]`. -/
abbrev inRange (C : IVec S2048 32) : IVec S2048 1 :=
  Host.reduce IntOp.andi
    (andi (cmpi .sge (starts C) (broadcastInDim S2048x1 ![] bcast_S_S2048x1 (constantI S_ 32 0#32)))
      (cmpi .sle (starts C) (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- What `take` returns for the column numbers `C` and the input array `X`: the gathered columns where the start
    index is in range, the fill value elsewhere. -/
abbrev taken (C : IVec S2048 32) (X : (⟨S16384x4096, .f32⟩ : BufTy).Contents (Elt F)) : (⟨S16384x2048, .f32⟩ : BufTy).Contents (Elt F) :=
  select (broadcastInDim S16384x2048 ![1] bcast_S2048_S16384x2048_1 (inRange C))
    (Host.gather gather_S16384x4096_S2048x1_S16384x2048_0_1_n_n_1_1_163841 X (starts C))
    (broadcastInDim S16384x2048 ![] bcast_S_S16384x2048 (constant S_ .f32 0x7FC00000#32))

/-- @main's first operation: the table of column numbers. -/
abbrev tableOp : HloOp τ sig (Elt F) := nullary main_c (fun i => lit0 (S2048.rowMajor i))

/-- @main's other operations, in order: `take`'s body over its call's buffers (with `where`'s select in its
    place), then the eight slices. -/
abbrev opsTail : List (HloOp τ sig (Elt F)) :=
  [ TRef.nullary main_call0.c (constantI S_ 32 0#32),
    TRef.unary main_call0.c main_call0.v0 (broadcastInDim S2048 ![] bcast_S_S2048),
    TRef.binary (.of main_c) main_call0.v0 main_call0.v1 (cmpi .slt),
    TRef.nullary main_call0.c_0 (constantI S_ 32 4096#32),
    TRef.unary main_call0.c_0 main_call0.v2 (broadcastInDim S2048 ![] bcast_S_S2048),
    TRef.binary (.of main_c) main_call0.v2 main_call0.v3 addi,
    TRef.ternary main_call0.v1 main_call0.v3 (.of main_c) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0) main_call0.v5 main_call0.v13 (fun x i => Host.gather gather_S16384x4096_S2048x1_S16384x2048_0_1_n_n_1_1_163841 x i),
    TRef.unary main_call0.v12 main_call0.v14 (broadcastInDim S16384x2048 ![1] bcast_S2048_S16384x2048_1),
    TRef.nullary main_call0.cst (constant S_ .f32 0x7FC00000#32),
    TRef.unary main_call0.cst main_call0.v15 (broadcastInDim S16384x2048 ![] bcast_S_S16384x2048),
    TRef.ternary main_call0.v14 main_call0.v13 main_call0.v15 main_call0.v16 select,
    unary main_v0 main_v1 ((extractStridedSlice S16384x256 ![0, 0] · slices_S16384x2048_S16384x256_0_0) : (⟨S16384x2048, .f32⟩ : BufTy).Contents (Elt F) → (⟨S16384x256, .f32⟩ : BufTy).Contents (Elt F)),
    unary main_v0 main_v2 ((extractStridedSlice S16384x256 ![0, 256] · slices_S16384x2048_S16384x256_0_256) : (⟨S16384x2048, .f32⟩ : BufTy).Contents (Elt F) → (⟨S16384x256, .f32⟩ : BufTy).Contents (Elt F)),
    unary main_v0 main_v3 ((extractStridedSlice S16384x256 ![0, 512] · slices_S16384x2048_S16384x256_0_512) : (⟨S16384x2048, .f32⟩ : BufTy).Contents (Elt F) → (⟨S16384x256, .f32⟩ : BufTy).Contents (Elt F)),
    unary main_v0 main_v4 ((extractStridedSlice S16384x256 ![0, 768] · slices_S16384x2048_S16384x256_0_768) : (⟨S16384x2048, .f32⟩ : BufTy).Contents (Elt F) → (⟨S16384x256, .f32⟩ : BufTy).Contents (Elt F)),
    unary main_v0 main_v5 ((extractStridedSlice S16384x256 ![0, 1024] · slices_S16384x2048_S16384x256_0_1024) : (⟨S16384x2048, .f32⟩ : BufTy).Contents (Elt F) → (⟨S16384x256, .f32⟩ : BufTy).Contents (Elt F)),
    unary main_v0 main_v6 ((extractStridedSlice S16384x256 ![0, 1280] · slices_S16384x2048_S16384x256_0_1280) : (⟨S16384x2048, .f32⟩ : BufTy).Contents (Elt F) → (⟨S16384x256, .f32⟩ : BufTy).Contents (Elt F)),
    unary main_v0 main_v7 ((extractStridedSlice S16384x256 ![0, 1536] · slices_S16384x2048_S16384x256_0_1536) : (⟨S16384x2048, .f32⟩ : BufTy).Contents (Elt F) → (⟨S16384x256, .f32⟩ : BufTy).Contents (Elt F)),
    unary main_v0 main_v8 ((extractStridedSlice S16384x256 ![0, 1792] · slices_S16384x2048_S16384x256_0_1792) : (⟨S16384x2048, .f32⟩ : BufTy).Contents (Elt F) → (⟨S16384x256, .f32⟩ : BufTy).Contents (Elt F)) ]

/-- @main's operations, in order. -/
abbrev ops : List (HloOp τ sig (Elt F)) := tableOp :: opsTail

set_option maxRecDepth 2048 in
/-- @main is that straight line: the two functions' bodies unfolded at their calls, both sides one chain of
    operations once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., unary_bufs_sub .., unary_bufs_sub .., unary_bufs_sub ..,
    unary_bufs_sub .., unary_bufs_sub ..⟩

/-- Every weakly fair execution of @main terminates with every buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The band of `take`'s result that result `k` holds: columns `256 k … 256 k + 255`. -/
abbrev band0 (Y : (⟨S16384x2048, .f32⟩ : BufTy).Contents (Elt F)) : (⟨S16384x256, .f32⟩ : BufTy).Contents (Elt F) :=
  extractStridedSlice S16384x256 ![0, 0] Y slices_S16384x2048_S16384x256_0_0
abbrev band1 (Y : (⟨S16384x2048, .f32⟩ : BufTy).Contents (Elt F)) : (⟨S16384x256, .f32⟩ : BufTy).Contents (Elt F) :=
  extractStridedSlice S16384x256 ![0, 256] Y slices_S16384x2048_S16384x256_0_256
abbrev band2 (Y : (⟨S16384x2048, .f32⟩ : BufTy).Contents (Elt F)) : (⟨S16384x256, .f32⟩ : BufTy).Contents (Elt F) :=
  extractStridedSlice S16384x256 ![0, 512] Y slices_S16384x2048_S16384x256_0_512
abbrev band3 (Y : (⟨S16384x2048, .f32⟩ : BufTy).Contents (Elt F)) : (⟨S16384x256, .f32⟩ : BufTy).Contents (Elt F) :=
  extractStridedSlice S16384x256 ![0, 768] Y slices_S16384x2048_S16384x256_0_768
abbrev band4 (Y : (⟨S16384x2048, .f32⟩ : BufTy).Contents (Elt F)) : (⟨S16384x256, .f32⟩ : BufTy).Contents (Elt F) :=
  extractStridedSlice S16384x256 ![0, 1024] Y slices_S16384x2048_S16384x256_0_1024
abbrev band5 (Y : (⟨S16384x2048, .f32⟩ : BufTy).Contents (Elt F)) : (⟨S16384x256, .f32⟩ : BufTy).Contents (Elt F) :=
  extractStridedSlice S16384x256 ![0, 1280] Y slices_S16384x2048_S16384x256_0_1280
abbrev band6 (Y : (⟨S16384x2048, .f32⟩ : BufTy).Contents (Elt F)) : (⟨S16384x256, .f32⟩ : BufTy).Contents (Elt F) :=
  extractStridedSlice S16384x256 ![0, 1536] Y slices_S16384x2048_S16384x256_0_1536
abbrev band7 (Y : (⟨S16384x2048, .f32⟩ : BufTy).Contents (Elt F)) : (⟨S16384x256, .f32⟩ : BufTy).Contents (Elt F) :=
  extractStridedSlice S16384x256 ![0, 1792] Y slices_S16384x2048_S16384x256_0_1792

end Cert.ReferenceIdeal.HandRun

end
-- ==== Proof.RefResultsA.lean ====
/-
  The reference's results 0 to 3, and its input, after the operations that follow the table: each operation's
  result read at its own buffer, every other buffer kept.
-/
import proofs.«155785_j5720896438285_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- Result 0 after the operations that follow the table, from any valuation `W`: band 0 of `taken` of the
    table buffer's and the input buffer's contents in `W`. -/
theorem tail_v1 (W : Valuation τ sig (Elt F)) :
    after opsTail W (main_v1 : DevRef τ sig)
      = band0 (taken (W (main_c : DevRef τ sig)) (W (main_arg0 : DevRef τ sig))) := by
  after_results_simp
  rfl

set_option maxRecDepth 8192 in
set_option maxHeartbeats 400000 in
/-- Result 1 likewise: band 1. -/
theorem tail_v2 (W : Valuation τ sig (Elt F)) :
    after opsTail W (main_v2 : DevRef τ sig)
      = band1 (taken (W (main_c : DevRef τ sig)) (W (main_arg0 : DevRef τ sig))) := by
  after_results_simp
  rfl

set_option maxRecDepth 8192 in
set_option maxHeartbeats 400000 in
/-- Result 2 likewise: band 2. -/
theorem tail_v3 (W : Valuation τ sig (Elt F)) :
    after opsTail W (main_v3 : DevRef τ sig)
      = band2 (taken (W (main_c : DevRef τ sig)) (W (main_arg0 : DevRef τ sig))) := by
  after_results_simp
  rfl

set_option maxRecDepth 8192 in
set_option maxHeartbeats 400000 in
/-- Result 3 likewise: band 3. -/
theorem tail_v4 (W : Valuation τ sig (Elt F)) :
    after opsTail W (main_v4 : DevRef τ sig)
      = band3 (taken (W (main_c : DevRef τ sig)) (W (main_arg0 : DevRef τ sig))) := by
  after_results_simp
  rfl

set_option maxRecDepth 8192 in
set_option maxHeartbeats 400000 in
/-- No operation writes the input array. -/
theorem tail_arg0 (W : Valuation τ sig (Elt F)) :
    after opsTail W (main_arg0 : DevRef τ sig) = W (main_arg0 : DevRef τ sig) := by
  after_results_simp

end Cert.ReferenceIdeal.HandRun

end
-- ==== Proof.RefResultsB.lean ====
/-
  The reference's results 4 to 7 after the operations that follow the table: each operation's result read at
  its own buffer, every other buffer kept.
-/
import proofs.«155785_j5720896438285_2_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 400000 in
/-- Result 4 after the operations that follow the table, from any valuation `W`: band 4 of `taken` of the
    table buffer's and the input buffer's contents in `W`. -/
theorem tail_v5 (W : Valuation τ sig (Elt F)) :
    after opsTail W (main_v5 : DevRef τ sig)
      = band4 (taken (W (main_c : DevRef τ sig)) (W (main_arg0 : DevRef τ sig))) := by
  after_results_simp
  rfl

set_option maxRecDepth 8192 in
set_option maxHeartbeats 400000 in
/-- Result 5 likewise: band 5. -/
theorem tail_v6 (W : Valuation τ sig (Elt F)) :
    after opsTail W (main_v6 : DevRef τ sig)
      = band5 (taken (W (main_c : DevRef τ sig)) (W (main_arg0 : DevRef τ sig))) := by
  after_results_simp
  rfl

set_option maxRecDepth 8192 in
set_option maxHeartbeats 400000 in
/-- Result 6 likewise: band 6. -/
theorem tail_v7 (W : Valuation τ sig (Elt F)) :
    after opsTail W (main_v7 : DevRef τ sig)
      = band6 (taken (W (main_c : DevRef τ sig)) (W (main_arg0 : DevRef τ sig))) := by
  after_results_simp
  rfl

set_option maxRecDepth 8192 in
set_option maxHeartbeats 400000 in
/-- Result 7 likewise: band 7. -/
theorem tail_v8 (W : Valuation τ sig (Elt F)) :
    after opsTail W (main_v8 : DevRef τ sig)
      = band7 (taken (W (main_c : DevRef τ sig)) (W (main_arg0 : DevRef τ sig))) := by
  after_results_simp
  rfl

end Cert.ReferenceIdeal.HandRun

end
-- ==== Proof.RefRunRead.lean ====
/-
  The reference's run, read: every weakly fair execution ends with result `k` at band `k` of what `take`
  returns for the table of column numbers and the input array, and with the input array unchanged.

  The first operation writes the table into its buffer and nothing else; the operations after it were read
  from an arbitrary valuation, which is now the one the table's operation leaves.
-/
import proofs.«155785_j5720896438285_2_alg».proof.Proof.RefResultsA
import proofs.«155785_j5720896438285_2_alg».proof.Proof.RefResultsB

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- After the first operation the table's buffer holds the table. -/
theorem table_c (V : Valuation τ sig (Elt F)) :
    (tableOp (F := F)).result V (main_c : DevRef τ sig) = cols :=
  nullary_result main_c _ _ V

/-- The first operation leaves the input array as it was. -/
theorem table_arg0 (V : Valuation τ sig (Elt F)) :
    (tableOp (F := F)).result V (main_arg0 : DevRef τ sig) = V (main_arg0 : DevRef τ sig) := by
  rw [nullary_result_ne]
  decide

theorem v1_eq (V : Valuation τ sig (Elt F)) :
    after ops V (main_v1 : DevRef τ sig) = band0 (taken cols (V (main_arg0 : DevRef τ sig))) := by
  show after opsTail ((tableOp (F := F)).result V) (main_v1 : DevRef τ sig) = _
  rw [tail_v1, table_c, table_arg0]

theorem v2_eq (V : Valuation τ sig (Elt F)) :
    after ops V (main_v2 : DevRef τ sig) = band1 (taken cols (V (main_arg0 : DevRef τ sig))) := by
  show after opsTail ((tableOp (F := F)).result V) (main_v2 : DevRef τ sig) = _
  rw [tail_v2, table_c, table_arg0]

theorem v3_eq (V : Valuation τ sig (Elt F)) :
    after ops V (main_v3 : DevRef τ sig) = band2 (taken cols (V (main_arg0 : DevRef τ sig))) := by
  show after opsTail ((tableOp (F := F)).result V) (main_v3 : DevRef τ sig) = _
  rw [tail_v3, table_c, table_arg0]

theorem v4_eq (V : Valuation τ sig (Elt F)) :
    after ops V (main_v4 : DevRef τ sig) = band3 (taken cols (V (main_arg0 : DevRef τ sig))) := by
  show after opsTail ((tableOp (F := F)).result V) (main_v4 : DevRef τ sig) = _
  rw [tail_v4, table_c, table_arg0]

theorem v5_eq (V : Valuation τ sig (Elt F)) :
    after ops V (main_v5 : DevRef τ sig) = band4 (taken cols (V (main_arg0 : DevRef τ sig))) := by
  show after opsTail ((tableOp (F := F)).result V) (main_v5 : DevRef τ sig) = _
  rw [tail_v5, table_c, table_arg0]

theorem v6_eq (V : Valuation τ sig (Elt F)) :
    after ops V (main_v6 : DevRef τ sig) = band5 (taken cols (V (main_arg0 : DevRef τ sig))) := by
  show after opsTail ((tableOp (F := F)).result V) (main_v6 : DevRef τ sig) = _
  rw [tail_v6, table_c, table_arg0]

theorem v7_eq (V : Valuation τ sig (Elt F)) :
    after ops V (main_v7 : DevRef τ sig) = band6 (taken cols (V (main_arg0 : DevRef τ sig))) := by
  show after opsTail ((tableOp (F := F)).result V) (main_v7 : DevRef τ sig) = _
  rw [tail_v7, table_c, table_arg0]

theorem v8_eq (V : Valuation τ sig (Elt F)) :
    after ops V (main_v8 : DevRef τ sig) = band7 (taken cols (V (main_arg0 : DevRef τ sig))) := by
  show after opsTail ((tableOp (F := F)).result V) (main_v8 : DevRef τ sig) = _
  rw [tail_v8, table_c, table_arg0]

theorem arg0_eq (V : Valuation τ sig (Elt F)) :
    after ops V (main_arg0 : DevRef τ sig) = V (main_arg0 : DevRef τ sig) := by
  show after opsTail ((tableOp (F := F)).result V) (main_arg0 : DevRef τ sig) = _
  rw [tail_arg0, table_arg0]

/-- On every device, from any memory with zero counters: every weakly fair execution of @main terminates with
    result `k` at band `k` of `taken cols` of the input array, and the input array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = band0 (taken cols (m ((c.tc : Thread nD τ).loc main_arg0)))
      ∧ r.2.mem ((c.tc : Thread nD τ).loc main_v2) = band1 (taken cols (m ((c.tc : Thread nD τ).loc main_arg0)))
      ∧ r.2.mem ((c.tc : Thread nD τ).loc main_v3) = band2 (taken cols (m ((c.tc : Thread nD τ).loc main_arg0)))
      ∧ r.2.mem ((c.tc : Thread nD τ).loc main_v4) = band3 (taken cols (m ((c.tc : Thread nD τ).loc main_arg0)))
      ∧ r.2.mem ((c.tc : Thread nD τ).loc main_v5) = band4 (taken cols (m ((c.tc : Thread nD τ).loc main_arg0)))
      ∧ r.2.mem ((c.tc : Thread nD τ).loc main_v6) = band5 (taken cols (m ((c.tc : Thread nD τ).loc main_arg0)))
      ∧ r.2.mem ((c.tc : Thread nD τ).loc main_v7) = band6 (taken cols (m ((c.tc : Thread nD τ).loc main_arg0)))
      ∧ r.2.mem ((c.tc : Thread nD τ).loc main_v8) = band7 (taken cols (m ((c.tc : Thread nD τ).loc main_arg0)))
      ∧ r.2.mem ((c.tc : Thread nD τ).loc main_arg0) = m ((c.tc : Thread nD τ).loc main_arg0) :=
  (θ_run defs _ _).mono (fun _ h c => ⟨(h c main_v1).trans (v1_eq _),
      (h c main_v2).trans (v2_eq _),
      (h c main_v3).trans (v3_eq _),
      (h c main_v4).trans (v4_eq _),
      (h c main_v5).trans (v5_eq _),
      (h c main_v6).trans (v6_eq _),
      (h c main_v7).trans (v7_eq _),
      (h c main_v8).trans (v8_eq _),
      (h c main_arg0).trans (arg0_eq _)⟩)
    (run_fold m ρ)

end Cert.ReferenceIdeal.HandRun

end
-- ==== Proof.RefTable.lean ====
/-
  The table of gathered column numbers, in closed form.

  The reference's `take` reads 2048 column numbers from a literal table: for each of eight groups `g`, for each of
  eight sub-chunks `j`, the 32 consecutive columns from `512 g + 64 j`. Entry `p` of the table is therefore
  `512 (p / 256) + 64 ((p mod 256) / 32) + p mod 32`; this is checked entry by entry. Every entry is below 4096, so
  read as a signed 32-bit integer it is itself, it is not negative, and it is at most 4095.
-/
import proofs.«155785_j5720896438285_2_alg».proof.ReferenceIdeal

noncomputable section

namespace Cert.ReferenceIdeal.Table

open Cert.ReferenceIdeal Idealize.ShloMosaic

/-- The input column that gathered column `p` reads. -/
def src (p : Nat) : Nat := p / 256 * 512 + p % 256 / 32 * 64 + p % 32

theorem src_lt (p : Nat) (hp : p < 2048) : src p < 4096 := by
  unfold src; omega

/-- Gathered column `256 g + q` of group `g` reads input column `512 g + 64 (q / 32) + q mod 32`. -/
theorem src_group (g q : Nat) (hq : q < 256) : src (256 * g + q) = g * 512 + q / 32 * 64 + q % 32 := by
  unfold src
  have h1 : (256 * g + q) / 256 = g := by omega
  have h2 : (256 * g + q) % 256 = q := by omega
  have h3 : (256 * g + q) % 32 = q % 32 := by omega
  rw [h1, h2, h3]

/-- THE TABLE, entry by entry: entry `p` is the word of `src p`. -/
theorem table_toNat : ∀ p : Nat, p < 2048 → (lit0t p).toNat = p / 256 * 512 + p % 256 / 32 * 64 + p % 32 := by
  decide +kernel

theorem lit0_toNat (p : Fin 2048) : (lit0 p).toNat = src p.val := table_toNat p.val p.isLt

/-! ## A 32-bit word below 4096, read signed -/

theorem toInt_of_lt (x : BitVec 32) (n : Nat) (hx : x.toNat = n) (hn : n < 4096) : x.toInt = (n : Int) := by
  rw [BitVec.toInt_eq_toNat_cond, hx]
  rw [if_pos (by omega)]

theorem sge_zero_of_nonneg (x : BitVec 32) (h : 0 ≤ x.toInt) : IntOp.cmpi .sge x 0#32 = 1#1 := by
  have hs : (0#32 : BitVec 32).sle x = true := by
    unfold BitVec.sle
    exact decide_eq_true (by simpa using h)
  show BitVec.ofBool ((0#32 : BitVec 32).sle x) = 1#1
  rw [hs]
  rfl

theorem sle_4095_of_le (x : BitVec 32) (h : x.toInt ≤ 4095) : IntOp.cmpi .sle x 4095#32 = 1#1 := by
  have h4 : (4095#32 : BitVec 32).toInt = 4095 := by decide
  have hs : x.sle 4095#32 = true := by
    unfold BitVec.sle
    exact decide_eq_true (by rw [h4]; exact h)
  show BitVec.ofBool (x.sle 4095#32) = 1#1
  rw [hs]
  rfl

end Cert.ReferenceIdeal.Table

end
-- ==== Proof.LibColGather.lean ====
/-
  `stablehlo.gather` of COLUMNS of a matrix at a column of start indices, read at an index.

  `jnp.take(x, idx, axis=1)` of a matrix `x : [N, K]` at an integer array `idx : [R]` lowers to a gather over the
  indices reshaped to `[R, 1]`: index_vector_dim 1, start_index_map `[1]`, collapsed_slice_dims `[1]`, offset_dims
  `[0]` with slice_sizes `[N, 1]`. Result column `r` is the operand's column at the start index `idx[r, 0]`,
  read as a signed integer and clamped into `[0, K − 1]`; the row is kept.
-/
import Idealize.ShloMosaic.Lib.ValueIdx

noncomputable section

open Idealize.ShloMosaic Idealize.ShloMosaic.ValueIdx

namespace Cert.Lib.ColGather

variable {α : Type}

/-- The first axis is not the second. -/
private theorem zero_ne_one2 : ¬ ((0 : Fin 2) = 1) := by decide

/-- The dimension numbers of a column gather: operand `[N, K]`, start indices `[R, 1]`, result `[N, R]`; the
    conditions `wf` are decided on a program's literal shapes. -/
abbrev colGatherDims (N K R : Nat)
    (wf : GatherDims.WF ⟨2, ![N, K]⟩ ⟨2, ![R, 1]⟩ ⟨2, ![N, R]⟩ [0] [1] [] [1] [] 1 ![N, 1]) :
    GatherDims ⟨2, ![N, K]⟩ ⟨2, ![R, 1]⟩ ⟨2, ![N, R]⟩ where
  offsetDims := [0]
  collapsedSliceDims := [1]
  operandBatchingDims := []
  startIndicesBatchingDims := []
  startIndexMap := [1]
  indexVectorDim := 1
  sliceSizes := ![N, 1]
  wf := wf

/-- THE COLUMN GATHER READ AT `(n, r)`: the operand at row `n` and column `idx[r, 0]` (read signed, clamped into
    `[0, K − 1]`). -/
theorem colGather_apply {N K R w : Nat} (hK : 0 < K)
    (wf : GatherDims.WF ⟨2, ![N, K]⟩ ⟨2, ![R, 1]⟩ ⟨2, ![N, R]⟩ [0] [1] [] [1] [] 1 ![N, 1])
    (x : (⟨2, ![N, K]⟩ : Shape).Idx → α) (idx : IVec ⟨2, ![R, 1]⟩ w) (n : Fin N) (r : Fin R) :
    Host.gather (colGatherDims N K R wf) x idx (ix2 n r)
      = x (ix2 n (⟨min (idx (ix2 r (0 : Fin 1))).toInt.toNat (K - 1), by omega⟩ : Fin K)) := by
  have h1 : ((colGatherDims N K R wf).operandIdx (ix2 n r) idx (1 : Fin 2)).val
      = min (idx (ix2 r (0 : Fin 1))).toInt.toNat (K - 1) := by
    show (colGatherDims N K R wf).start (ix2 n r) idx 1 + (colGatherDims N K R wf).batchCoord (ix2 n r) 1
      + (colGatherDims N K R wf).offCoord (ix2 n r) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGatherDims N K R wf).startIndexMap from List.mem_singleton.mpr rfl)]
    have hsi : (colGatherDims N K R wf).siIdx (ix2 n r) ⟨List.idxOf (1 : Fin 2) (colGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h0 : ((colGatherDims N K R wf).operandIdx (ix2 n r) idx (0 : Fin 2)).val = n.val := by
    show (colGatherDims N K R wf).start (ix2 n r) idx 0 + (colGatherDims N K R wf).batchCoord (ix2 n r) 0
      + (colGatherDims N K R wf).offCoord (ix2 n r) 0 = _
    rw [GatherDims.batchCoord_eq_zero _ _ _ List.not_mem_nil]
    unfold GatherDims.start
    rw [dif_neg (show (0 : Fin 2) ∉ (colGatherDims N K R wf).startIndexMap from
      fun h => absurd (List.mem_singleton.mp h) zero_ne_one2)]
    unfold GatherDims.offCoord
    rw [dif_pos ((GatherDims.mem_sKept _ _).mpr
      ⟨fun h => absurd (List.mem_singleton.mp h) zero_ne_one2, List.not_mem_nil⟩)]
    simp only [Nat.zero_add]
    rfl
  unfold Host.gather
  congr 1
  funext a
  refine Fin.ext ?_
  match a with
  | ⟨0, _⟩ => exact h0
  | ⟨1, _⟩ => exact h1

end Cert.Lib.ColGather

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.RefValue.lean ====
/-
  The reference, index by index.

  Result `k` of the reference is columns `256 k … 256 k + 255` of what `take` returns. Column `p` of that is the
  input's column at the start index the gather reads for `p`, provided the start index is in range; the start
  index is the table's entry `p` after the negative-index wrap. Every table entry is `src p`, below 4096: not
  negative, so the wrap leaves it alone; in `[0, 4095]`, so the in-range mask is set and the clamp is the identity.
  So column `p` of `take`'s result is input column `src p`, and result `k`'s column `q` is input column
  `src (256 k + q) = 512 k + 64 (q / 32) + q mod 32`: the specification's `pick k`.
-/
import proofs.«155785_j5720896438285_2_alg».proof.Proof.RefRun
import proofs.«155785_j5720896438285_2_alg».proof.Proof.RefTable
import proofs.«155785_j5720896438285_2_alg».proof.Proof.LibColGather
import proofs.«155785_j5720896438285_2_alg».proof.Proof.LibIndexNorm
import proofs.«155785_j5720896438285_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.HandRun Idealize.ShloMosaic
open Idealize.ShloMosaic.ValueIdx

variable {F : FTy → Type} [FloatOps F]

/-- A left fold of "and with one" from one stays one, whatever the list folded over. -/
theorem foldl_and_one {β : Type} (L : List β) :
    L.foldl (fun (r : BitVec 1) (_ : β) => IntOp.andi r 1#1) 1#1 = 1#1 := by
  induction L with
  | nil => rfl
  | cons a L ih => exact ih

section Entries

variable (C : IVec S2048 32) (hC : ∀ p : Fin 2048, (C (ix1 p)).toNat = Table.src p.val)
include hC

/-- THE START INDEX the gather reads for gathered column `p` is the table's entry `p`: the wrap leaves a
    non-negative entry alone. -/
theorem starts_apply (p : Fin 2048) : starts C (ix2 p (0 : Fin 1)) = C (ix1 p) := by
  have hx := hC p
  have hlt := Table.src_lt p.val p.isLt
  refine (Cert.Lib.IndexNorm.bcast_col_apply _ bcast_S2048_S2048x1_0 p).trans ?_
  exact Cert.Lib.IndexNorm.select_wrap_apply C _ _ (ix1 p) rfl
    (by rw [Table.toInt_of_lt _ _ hx hlt]; exact Int.natCast_nonneg _)

/-- Every start index is at least 0 and at most 4095. -/
theorem mask_entry (i : S2048x1.Idx) :
    andi (cmpi .sge (starts C) (broadcastInDim S2048x1 ![] bcast_S_S2048x1 (constantI S_ 32 0#32)))
      (cmpi .sle (starts C) (broadcastInDim S2048x1 ![0, 1] bcast_S1x1_S2048x1_0_1
        (broadcastInDim S1x1 ![1] bcast_S1_S1x1_1 (constantI S1 32 4095#32)))) i = 1#1 := by
  obtain ⟨p, rfl⟩ : ∃ p : Fin 2048, i = ix2 p (0 : Fin 1) :=
    ⟨i 0, funext fun a => match a with
      | ⟨0, _⟩ => rfl
      | ⟨1, _⟩ => Fin.ext (by show (i 1).val = 0; have := idx2_lt1 i; omega)⟩
  have hx := hC p
  have hlt := Table.src_lt p.val p.isLt
  have hI := Table.toInt_of_lt _ _ hx hlt
  show IntOp.andi (IntOp.cmpi .sge (starts C (ix2 p (0 : Fin 1))) 0#32)
    (IntOp.cmpi .sle (starts C (ix2 p (0 : Fin 1))) 4095#32) = 1#1
  rw [starts_apply C hC p, Table.sge_zero_of_nonneg _ (by rw [hI]; exact Int.natCast_nonneg _),
    Table.sle_4095_of_le _ (by rw [hI]; omega)]
  rfl

/-- So the in-range mask is set at every gathered column. -/
theorem inRange_apply (p : Fin 2048) : inRange C (ix1 p) = 1#1 := by
  have hm : andi (cmpi .sge (starts C) (broadcastInDim S2048x1 ![] bcast_S_S2048x1 (constantI S_ 32 0#32)))
      (cmpi .sle (starts C) (broadcastInDim S2048x1 ![0, 1] bcast_S1x1_S2048x1_0_1
        (broadcastInDim S1x1 ![1] bcast_S1_S1x1_1 (constantI S1 32 4095#32)))) = fun _ => 1#1 :=
    funext fun i => mask_entry C hC i
  unfold inRange
  rw [hm]
  unfold Host.reduce
  exact foldl_and_one _

/-- WHAT `take` RETURNS, at row `r` and gathered column `p`: the input at row `r`, column `src p`. -/
theorem taken_apply (X : (⟨S16384x4096, .f32⟩ : BufTy).Contents (Elt F)) (r : Fin 16384) (p : Fin 2048)
    (k : Fin 4096) (hk : k.val = Table.src p.val) :
    taken C X (ix2 r p) = X (ix2 r k) := by
  have hx := hC p
  have hlt := Table.src_lt p.val p.isLt
  have hI := Table.toInt_of_lt _ _ hx hlt
  have hmask : broadcastInDim S16384x2048 ![1] bcast_S2048_S16384x2048_1 (inRange C) (ix2 r p) = 1#1 := by
    refine (broadcastInDim_apply _ bcast_S2048_S16384x2048_1 (inRange C) (ix2 r p) (ix1 p) (fun a => ?_)).trans
      (inRange_apply C hC p)
    obtain rfl : a = 0 := Subsingleton.elim _ _
    show p.val = if (2048 : Nat) = 1 then 0 else p.val
    rw [if_neg (by decide)]
  show Scalar.select (broadcastInDim S16384x2048 ![1] bcast_S2048_S16384x2048_1 (inRange C) (ix2 r p))
    (Host.gather gather_S16384x4096_S2048x1_S16384x2048_0_1_n_n_1_1_163841 X (starts C) (ix2 r p)) _ = _
  rw [hmask]
  refine (if_pos (by decide : (1#1 : BitVec 1) = 1)).trans ?_
  show Host.gather (Cert.Lib.ColGather.colGatherDims 16384 4096 2048
    gather_S16384x4096_S2048x1_S16384x2048_0_1_n_n_1_1_163841_wf) X (starts C) (ix2 r p) = _
  rw [Cert.Lib.ColGather.colGather_apply (by decide)]
  refine congrArg X (congrArg (ix2 r) (Fin.ext ?_))
  show min (starts C (ix2 p (0 : Fin 1))).toInt.toNat (4096 - 1) = k.val
  rw [starts_apply C hC p, hI, hk]
  simp only [Int.toNat_natCast]
  omega

end Entries

/-- The table the program holds has entry `p` equal to `src p`. -/
theorem cols_entry (p : Fin 2048) : (cols (ix1 p)).toNat = Table.src p.val := by
  show (lit0 (S2048.rowMajor (ix1 p))).toNat = _
  have hrm : S2048.rowMajor (ix1 p) = p := by
    apply Fin.ext
    rw [Shape.rowMajor_val_one]
  rw [hrm]
  exact Table.lit0_toNat p

end Cert.ReferenceIdeal.RefValue

end
-- ==== Proof.RefBands.lean ====
/-
  The reference's eight results are the specification's eight functions of the input.

  Result `k` is band `k` of `take`'s result: its column `q` is gathered column `256 k + q`, and that column of
  `take`'s result is input column `src (256 k + q) = 512 k + 64 (q / 32) + q mod 32 = col k q`.
-/
import proofs.«155785_j5720896438285_2_alg».proof.Proof.RefValue

noncomputable section

namespace Cert.ReferenceIdeal.RefValue

open Cert.ReferenceIdeal Cert.ReferenceIdeal.Gen Cert.ReferenceIdeal.HandRun Idealize.ShloMosaic
open Idealize.ShloMosaic.ValueIdx

variable {F : FTy → Type} [FloatOps F]

/-- Result 0: column `q` of band 0 is gathered column `q`, which reads input column `col 0 q`. -/
theorem band0_taken (X : (⟨S16384x4096, .f32⟩ : BufTy).Contents (Elt F)) : band0 (taken cols X) = Spec.pick 0 X := by
  funext i
  obtain ⟨r, q, rfl⟩ : ∃ (r : Fin 16384) (q : Fin 256), i = ix2 r q := ⟨i 0, i 1, eq_ix2 i⟩
  have hq := q.isLt
  rw [Spec.pick_apply 0 X r q ⟨Spec.col 0 q.val, Spec.col_lt 0 q.val (by decide) hq⟩ rfl]
  refine (extractStridedSlice_apply ![0, 0] (taken cols X) slices_S16384x2048_S16384x256_0_0 (ix2 r q)
    (ix2 r (⟨0 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 0 q.val = Table.src (0 + q.val)
      unfold Spec.col Table.src; omega)

/-- Result 1: column `q` of band 1 is gathered column `256 + q`, which reads input column `col 1 q`. -/
theorem band1_taken (X : (⟨S16384x4096, .f32⟩ : BufTy).Contents (Elt F)) : band1 (taken cols X) = Spec.pick 1 X := by
  funext i
  obtain ⟨r, q, rfl⟩ : ∃ (r : Fin 16384) (q : Fin 256), i = ix2 r q := ⟨i 0, i 1, eq_ix2 i⟩
  have hq := q.isLt
  rw [Spec.pick_apply 1 X r q ⟨Spec.col 1 q.val, Spec.col_lt 1 q.val (by decide) hq⟩ rfl]
  refine (extractStridedSlice_apply ![0, 256] (taken cols X) slices_S16384x2048_S16384x256_0_256 (ix2 r q)
    (ix2 r (⟨256 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 1 q.val = Table.src (256 + q.val)
      unfold Spec.col Table.src; omega)

/-- Result 2: column `q` of band 2 is gathered column `512 + q`, which reads input column `col 2 q`. -/
theorem band2_taken (X : (⟨S16384x4096, .f32⟩ : BufTy).Contents (Elt F)) : band2 (taken cols X) = Spec.pick 2 X := by
  funext i
  obtain ⟨r, q, rfl⟩ : ∃ (r : Fin 16384) (q : Fin 256), i = ix2 r q := ⟨i 0, i 1, eq_ix2 i⟩
  have hq := q.isLt
  rw [Spec.pick_apply 2 X r q ⟨Spec.col 2 q.val, Spec.col_lt 2 q.val (by decide) hq⟩ rfl]
  refine (extractStridedSlice_apply ![0, 512] (taken cols X) slices_S16384x2048_S16384x256_0_512 (ix2 r q)
    (ix2 r (⟨512 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 2 q.val = Table.src (512 + q.val)
      unfold Spec.col Table.src; omega)

/-- Result 3: column `q` of band 3 is gathered column `768 + q`, which reads input column `col 3 q`. -/
theorem band3_taken (X : (⟨S16384x4096, .f32⟩ : BufTy).Contents (Elt F)) : band3 (taken cols X) = Spec.pick 3 X := by
  funext i
  obtain ⟨r, q, rfl⟩ : ∃ (r : Fin 16384) (q : Fin 256), i = ix2 r q := ⟨i 0, i 1, eq_ix2 i⟩
  have hq := q.isLt
  rw [Spec.pick_apply 3 X r q ⟨Spec.col 3 q.val, Spec.col_lt 3 q.val (by decide) hq⟩ rfl]
  refine (extractStridedSlice_apply ![0, 768] (taken cols X) slices_S16384x2048_S16384x256_0_768 (ix2 r q)
    (ix2 r (⟨768 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 3 q.val = Table.src (768 + q.val)
      unfold Spec.col Table.src; omega)

/-- Result 4: column `q` of band 4 is gathered column `1024 + q`, which reads input column `col 4 q`. -/
theorem band4_taken (X : (⟨S16384x4096, .f32⟩ : BufTy).Contents (Elt F)) : band4 (taken cols X) = Spec.pick 4 X := by
  funext i
  obtain ⟨r, q, rfl⟩ : ∃ (r : Fin 16384) (q : Fin 256), i = ix2 r q := ⟨i 0, i 1, eq_ix2 i⟩
  have hq := q.isLt
  rw [Spec.pick_apply 4 X r q ⟨Spec.col 4 q.val, Spec.col_lt 4 q.val (by decide) hq⟩ rfl]
  refine (extractStridedSlice_apply ![0, 1024] (taken cols X) slices_S16384x2048_S16384x256_0_1024 (ix2 r q)
    (ix2 r (⟨1024 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 4 q.val = Table.src (1024 + q.val)
      unfold Spec.col Table.src; omega)

/-- Result 5: column `q` of band 5 is gathered column `1280 + q`, which reads input column `col 5 q`. -/
theorem band5_taken (X : (⟨S16384x4096, .f32⟩ : BufTy).Contents (Elt F)) : band5 (taken cols X) = Spec.pick 5 X := by
  funext i
  obtain ⟨r, q, rfl⟩ : ∃ (r : Fin 16384) (q : Fin 256), i = ix2 r q := ⟨i 0, i 1, eq_ix2 i⟩
  have hq := q.isLt
  rw [Spec.pick_apply 5 X r q ⟨Spec.col 5 q.val, Spec.col_lt 5 q.val (by decide) hq⟩ rfl]
  refine (extractStridedSlice_apply ![0, 1280] (taken cols X) slices_S16384x2048_S16384x256_0_1280 (ix2 r q)
    (ix2 r (⟨1280 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 5 q.val = Table.src (1280 + q.val)
      unfold Spec.col Table.src; omega)

/-- Result 6: column `q` of band 6 is gathered column `1536 + q`, which reads input column `col 6 q`. -/
theorem band6_taken (X : (⟨S16384x4096, .f32⟩ : BufTy).Contents (Elt F)) : band6 (taken cols X) = Spec.pick 6 X := by
  funext i
  obtain ⟨r, q, rfl⟩ : ∃ (r : Fin 16384) (q : Fin 256), i = ix2 r q := ⟨i 0, i 1, eq_ix2 i⟩
  have hq := q.isLt
  rw [Spec.pick_apply 6 X r q ⟨Spec.col 6 q.val, Spec.col_lt 6 q.val (by decide) hq⟩ rfl]
  refine (extractStridedSlice_apply ![0, 1536] (taken cols X) slices_S16384x2048_S16384x256_0_1536 (ix2 r q)
    (ix2 r (⟨1536 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 6 q.val = Table.src (1536 + q.val)
      unfold Spec.col Table.src; omega)

/-- Result 7: column `q` of band 7 is gathered column `1792 + q`, which reads input column `col 7 q`. -/
theorem band7_taken (X : (⟨S16384x4096, .f32⟩ : BufTy).Contents (Elt F)) : band7 (taken cols X) = Spec.pick 7 X := by
  funext i
  obtain ⟨r, q, rfl⟩ : ∃ (r : Fin 16384) (q : Fin 256), i = ix2 r q := ⟨i 0, i 1, eq_ix2 i⟩
  have hq := q.isLt
  rw [Spec.pick_apply 7 X r q ⟨Spec.col 7 q.val, Spec.col_lt 7 q.val (by decide) hq⟩ rfl]
  refine (extractStridedSlice_apply ![0, 1792] (taken cols X) slices_S16384x2048_S16384x256_0_1792 (ix2 r q)
    (ix2 r (⟨1792 + q.val, by omega⟩ : Fin 2048)) (fun a => ?_)).trans ?_
  · match a with
    | ⟨0, _⟩ => show r.val = 0 + r.val; omega
    | ⟨1, _⟩ => rfl
  · exact taken_apply cols cols_entry X r _ _ (by
      show Spec.col 7 q.val = Table.src (1792 + q.val)
      unfold Spec.col Table.src; omega)

end Cert.ReferenceIdeal.RefValue

end
-- ==== Proof.lean ====
/-
  The kernel copies columns; so does the reference; they copy the same ones.

  The input is a [16384, 4096] float array. Each of the eight outputs is [16384, 256]: output `g` keeps rows and
  takes, from input columns `512 g … 512 g + 511`, the first 32 of every 64, so its column `q` is input column
  `512 g + 64 (q / 32) + q mod 32` (`Spec.pick g`).

  The kernel does this block by block: 32 grid points, point `t` holding input rows `512 t … 512 t + 511`; for
  each output it joins eight [512, 32] column slices of its block side by side and stores the [512, 256] result
  as that output's rows `512 t … 512 t + 511`. The blocks tile every output, so output `g` ends holding
  `pick g` of the input (Proof/KernelSlices, KernelArraysA, KernelArraysB, KernelRun).

  The reference gathers 2048 columns through a literal table of column numbers and cuts the result into eight
  bands of 256 columns. Table entry `p` is `512 (p / 256) + 64 ((p mod 256) / 32) + p mod 32`, always in
  `[0, 4095]`, so the gather's negative-index wrap, range mask and clamp all leave it alone, and band `g`'s column
  `q` is again input column `512 g + 64 (q / 32) + q mod 32` (Proof/RefRun, RefResultsA, RefResultsB, RefRunRead,
  RefTable, RefValue, RefBands).

  No arithmetic is done on the values: both programs move extended reals from one place to another, so the two
  results are equal entry by entry for every input, finite or not, and the precondition is never opened. The
  idealization rewrote nothing, so there is nothing to preserve beyond the program's own text.
-/
import proofs.«155785_j5720896438285_2_alg».proof.Defs
import proofs.«155785_j5720896438285_2_alg».proof.Proof.Gen.Kernel
import proofs.«155785_j5720896438285_2_alg».proof.Proof.Gen.Kernel.Skeleton
import proofs.«155785_j5720896438285_2_alg».proof.Proof.Gen.Kernel.Launch
import proofs.«155785_j5720896438285_2_alg».proof.Proof.Gen.Kernel.Points
import proofs.«155785_j5720896438285_2_alg».proof.Proof.Gen.Kernel.Frame
import proofs.«155785_j5720896438285_2_alg».proof.Proof.Gen.KernelIdeal
import proofs.«155785_j5720896438285_2_alg».proof.Proof.Gen.KernelIdeal.Skeleton
import proofs.«155785_j5720896438285_2_alg».proof.Proof.Gen.KernelIdeal.Launch
import proofs.«155785_j5720896438285_2_alg».proof.Proof.Gen.KernelIdeal.Points
import proofs.«155785_j5720896438285_2_alg».proof.Proof.Gen.KernelIdeal.Frame
import proofs.«155785_j5720896438285_2_alg».proof.Proof.Gen.KernelIdeal.Value
import proofs.«155785_j5720896438285_2_alg».proof.Proof.Gen.ReferenceIdeal
import proofs.«155785_j5720896438285_2_alg».proof.Proof.Gen.Pre_finite_inputs
import proofs.«155785_j5720896438285_2_alg».proof.Proof.KernelRun
import proofs.«155785_j5720896438285_2_alg».proof.Proof.RefRunRead
import proofs.«155785_j5720896438285_2_alg».proof.Proof.RefBands
import Idealize.ShloMosaic.Adequacy
import Idealize.ShloMosaic.Init

noncomputable section

namespace Cert.Proof

open Idealize.ShloMosaic Idealize.ShloMosaic.TcCoe Idealize.SL.Sem

/-- The word-level kernel runs and leaves its input alone. -/
theorem frame_k : Cert.frame_Kernel := fun m ρ _ => Cert.Kernel.Gen.frame m ρ

/-- The kernel read over the extended reals runs and leaves its input alone. -/
theorem frame_ki : Cert.frame_KernelIdeal := fun m ρ _ => Cert.KernelIdeal.Gen.frame m ρ

/-- The reference runs and leaves its input alone: its run, with the results dropped. -/
theorem frame_ri : Cert.frame_ReferenceIdeal := fun m ρ _ =>
  (θ_run Cert.ReferenceIdeal.defs _ _).mono (fun _ h c => (h c).2.2.2.2.2.2.2.2)
    (Cert.ReferenceIdeal.HandRun.run (F := Ideal) m ρ)

/-- The idealization rewrote no operation. -/
theorem preserves : Cert.preserves_Kernel_KernelIdeal := trivial

/-- From inputs that agree, the kernel's output `g` and the reference's result `g` are both `pick g` of the
    input. -/
theorem algebraic : Cert.algebraic_KernelIdeal_ReferenceIdeal := by
  intro m ρ m' ρ' _ hagree
  refine ⟨fun c => Cert.Spec.pick 0 (m ((c.tc : Thread Cert.KernelIdeal.nD Cert.KernelIdeal.τ).loc Cert.KernelIdeal.main_arg0)),
    fun c => Cert.Spec.pick 1 (m ((c.tc : Thread Cert.KernelIdeal.nD Cert.KernelIdeal.τ).loc Cert.KernelIdeal.main_arg0)),
    fun c => Cert.Spec.pick 2 (m ((c.tc : Thread Cert.KernelIdeal.nD Cert.KernelIdeal.τ).loc Cert.KernelIdeal.main_arg0)),
    fun c => Cert.Spec.pick 3 (m ((c.tc : Thread Cert.KernelIdeal.nD Cert.KernelIdeal.τ).loc Cert.KernelIdeal.main_arg0)),
    fun c => Cert.Spec.pick 4 (m ((c.tc : Thread Cert.KernelIdeal.nD Cert.KernelIdeal.τ).loc Cert.KernelIdeal.main_arg0)),
    fun c => Cert.Spec.pick 5 (m ((c.tc : Thread Cert.KernelIdeal.nD Cert.KernelIdeal.τ).loc Cert.KernelIdeal.main_arg0)),
    fun c => Cert.Spec.pick 6 (m ((c.tc : Thread Cert.KernelIdeal.nD Cert.KernelIdeal.τ).loc Cert.KernelIdeal.main_arg0)),
    fun c => Cert.Spec.pick 7 (m ((c.tc : Thread Cert.KernelIdeal.nD Cert.KernelIdeal.τ).loc Cert.KernelIdeal.main_arg0)),
    Cert.KernelIdeal.Blocks.run (F := Ideal) m ρ, ?_⟩
  refine (θ_run Cert.ReferenceIdeal.defs _ _).mono (fun _ h c => ?_)
    (Cert.ReferenceIdeal.HandRun.run (F := Ideal) m' ρ')
  obtain ⟨h1, h2, h3, h4, h5, h6, h7, h8, h0⟩ := h c
  have e := hagree c
  exact ⟨h1.trans (by rw [Cert.ReferenceIdeal.RefValue.band0_taken, e]),
    h2.trans (by rw [Cert.ReferenceIdeal.RefValue.band1_taken, e]),
    h3.trans (by rw [Cert.ReferenceIdeal.RefValue.band2_taken, e]),
    h4.trans (by rw [Cert.ReferenceIdeal.RefValue.band3_taken, e]),
    h5.trans (by rw [Cert.ReferenceIdeal.RefValue.band4_taken, e]),
    h6.trans (by rw [Cert.ReferenceIdeal.RefValue.band5_taken, e]),
    h7.trans (by rw [Cert.ReferenceIdeal.RefValue.band6_taken, e]),
    h8.trans (by rw [Cert.ReferenceIdeal.RefValue.band7_taken, e]),
    h0⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
